-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S2048 : Shape := ⟨1, ![2048]⟩
abbrev S2048x2048 : Shape := ⟨2, ![2048, 2048]⟩
abbrev S4096x2048 : Shape := ⟨2, ![4096, 2048]⟩
abbrev S4096 : Shape := ⟨1, ![4096]⟩
abbrev S32000x2048 : Shape := ⟨2, ![32000, 2048]⟩
abbrev S32000 : Shape := ⟨1, ![32000]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S32000x2048 : S_.BroadcastsInDim S32000x2048 (![] : Fin 0 → Fin S32000x2048.rank)
  reducesTo_S32000x2048_S_d0_1 : S32000x2048.ReducesTo [0, 1] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg7 : FVec F S32000x2048 .f32) (main_arg8 : FVec F S32000 .f32) (main_v33 : IVec S_ 1) : IVec S_ 1 :=
  let main_v34 : FVec F S32000x2048 .f32 := Host.absf main_arg7
  let main_cst_12 : FVec F S_ .f32 := constant S_ .f32 0x7F800000#32
  let main_v35 : FVec F S32000x2048 .f32 := broadcastInDim S32000x2048 ![] bcast_S_S32000x2048 main_cst_12
  let main_v36 : IVec S32000x2048 1 := cmpf .olt main_v34 main_v35
  let main_c_13 : IVec S_ 1 := constantI S_ 1 1#1
  let main_v37 : IVec S_ 1 := (fun x v => Host.reduce IntOp.andi x v reducesTo_S32000x2048_S_d0_1 h_S_) main_v36 main_c_13
  let main_v38 : IVec S_ 1 := andi main_v33 main_v37
  let main_v39 : FVec F S32000 .f32 := Host.absf main_arg8
  let main_cst_14 : FVec F S_ .f32 := constant S_ .f32 0x7F800000#32
  let main_v40 : FVec F S32000 .f32 := broadcastInDim S32000 ![] bcast_S_S32000 main_cst_14
  let main_v41 : IVec S32000 1 := cmpf .olt main_v39 main_v40
  let main_c_15 : IVec S_ 1 := constantI S_ 1 1#1
  let main_v42 : IVec S_ 1 := (fun x v => Host.reduce IntOp.andi x v reducesTo_S32000_S_d0 h_S_) main_v41 main_c_15
  let main_v43 : IVec S_ 1 := andi main_v38 main_v42
  main_v43

def fn_part1 {F : FTy → Type} [FloatOps F] (main_arg4 : FVec F S2048 .f32) (main_arg5 : FVec F S4096x2048 .f32) (main_arg6 : FVec F S4096 .f32) (main_arg7 : FVec F S32000x2048 .f32) (main_arg8 : FVec F S32000 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S2048x1024 .f32) (main_arg2 : FVec F S2048 .f32) (main_arg3 : FVec F S2048x2048 .f32) (main_arg4 : FVec F S2048 .f32) (main_arg5 : FVec F S4096x2048 .f32) (main_arg6 : FVec F S4096 .f32) (main_arg7 : FVec F S32000x2048 .f32) (main_arg8 : FVec F S32000 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S2048x1024 : Shape := ⟨2, ![2048, 1024]⟩
abbrev S2048 : Shape := ⟨1, ![2048]⟩
abbrev S2048x2048 : Shape := ⟨2, ![2048, 2048]⟩
abbrev S4096x2048 : Shape := ⟨2, ![4096, 2048]⟩
abbrev S4096 : Shape := ⟨1, ![4096]⟩
abbrev S32000x2048 : Shape := ⟨2, ![32000, 2048]⟩
abbrev S32000 : Shape := ⟨1, ![32000]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x2048 : Shape := ⟨2, ![1, 2048]⟩
abbrev S8192x2048 : Shape := ⟨2, ![8192, 2048]⟩
abbrev S1x256 : Shape := ⟨2, ![1, 256]⟩
abbrev S2048x256 : Shape := ⟨2, ![2048, 256]⟩
abbrev S1x4096 : Shape := ⟨2, ![1, 4096]⟩
abbrev S8192x4096 : Shape := ⟨2, ![8192, 4096]⟩
abbrev S1x32000 : Shape := ⟨2, ![1, 32000]⟩
abbrev S8192x32000 : Shape := ⟨2, ![8192, 32000]⟩

abbrev nBuf : Space → Nat
  | .hbm => 21
  | .vmem => 48
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S4096x2048, .f32⟩
  | .hbm, ⟨6, _⟩ => ⟨S4096, .f32⟩
  | .hbm, ⟨7, _⟩ => ⟨S32000x2048, .f32⟩
  | .hbm, ⟨8, _⟩ => ⟨S32000, .f32⟩
  | .hbm, ⟨9, _⟩ => ⟨S2048x1024, .bf16⟩
  | .hbm, ⟨10, _⟩ => ⟨S2048x2048, .bf16⟩
  | .hbm, ⟨11, _⟩ => ⟨S4096x2048, .bf16⟩
  | .hbm, ⟨12, _⟩ => ⟨S32000x2048, .bf16⟩
  | .hbm, ⟨13, _⟩ => ⟨S1x2048, .f32⟩
  | .hbm, ⟨14, _⟩ => ⟨S8192x2048, .bf16⟩
  | .hbm, ⟨15, _⟩ => ⟨S1x2048, .f32⟩
  | .hbm, ⟨16, _⟩ => ⟨S8192x2048, .bf16⟩
  | .hbm, ⟨17, _⟩ => ⟨S1x4096, .f32⟩
  | .hbm, ⟨18, _⟩ => ⟨S8192x4096, .f32⟩
  | .hbm, ⟨19, _⟩ => ⟨S1x32000, .f32⟩
  | .hbm, ⟨20, _⟩ => ⟨S8192x32000, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S2048x1024, .f32⟩
  | .local _ .vmem, ⟨17, _⟩ => ⟨S2048x1024, .f32⟩
  | .local _ .vmem, ⟨18, _⟩ => ⟨S256x1024, .bf16⟩
  | .local _ .vmem, ⟨19, _⟩ => ⟨S256x1024, .bf16⟩
  | .local _ .vmem, ⟨20, _⟩ => ⟨S1x256, .f32⟩
  | .local _ .vmem, ⟨21, _⟩ => ⟨S1x256, .f32⟩
  | .local _ .vmem, ⟨22, _⟩ => ⟨S2048x256, .bf16⟩
  | .local _ .vmem, ⟨23, _⟩ => ⟨S2048x256, .bf16⟩
  | .local _ .vmem, ⟨24, _⟩ => ⟨S2048x2048, .bf16⟩
  | .local _ .vmem, ⟨25, _⟩ => ⟨S2048x2048, .bf16⟩
  | .local _ .vmem, ⟨26, _⟩ => ⟨S256x2048, .bf16⟩
  | .local _ .vmem, ⟨27, _⟩ => ⟨S256x2048, .bf16⟩
  | .local _ .vmem, ⟨28, _⟩ => ⟨S1x256, .f32⟩
  | .local _ .vmem, ⟨29, _⟩ => ⟨S1x256, .f32⟩
  | .local _ .vmem, ⟨30, _⟩ => ⟨S2048x256, .bf16⟩
  | .local _ .vmem, ⟨31, _⟩ => ⟨S2048x256, .bf16⟩
  | .local _ .vmem, ⟨32, _⟩ => ⟨S2048x2048, .bf16⟩
  | .local _ .vmem, ⟨33, _⟩ => ⟨S2048x2048, .bf16⟩
  | .local _ .vmem, ⟨34, _⟩ => ⟨S256x2048, .bf16⟩
  | .local _ .vmem, ⟨35, _⟩ => ⟨S256x2048, .bf16⟩
  | .local _ .vmem, ⟨36, _⟩ => ⟨S1x256, .f32⟩
  | .local _ .vmem, ⟨37, _⟩ => ⟨S1x256, .f32⟩
  | .local _ .vmem, ⟨38, _⟩ => ⟨S2048x256, .f32⟩
  | .local _ .vmem, ⟨39, _⟩ => ⟨S2048x256, .f32⟩
  | .local _ .vmem, ⟨40, _⟩ => ⟨S2048x2048, .bf16⟩
  | .local _ .vmem, ⟨41, _⟩ => ⟨S2048x2048, .bf16⟩
  | .local _ .vmem, ⟨42, _⟩ => ⟨S256x2048, .bf16⟩
  | .local _ .vmem, ⟨43, _⟩ => ⟨S256x2048, .bf16⟩
  | .local _ .vmem, ⟨44, _⟩ => ⟨S1x256, .f32⟩
  | .local _ .vmem, ⟨45, _⟩ => ⟨S1x256, .f32⟩
  | .local _ .vmem, ⟨46, _⟩ => ⟨S2048x256, .f32⟩
  | .local _ .vmem, ⟨47, _⟩ => ⟨S2048x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg3_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg2_1 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc5_sem0_0 : DmaSem sig := 24
abbrev cc5_sem0_1 : DmaSem sig := 25
abbrev cc5_sem1_0 : DmaSem sig := 26
abbrev cc5_sem1_1 : DmaSem sig := 27
abbrev cc5_sem2_0 : DmaSem sig := 28
abbrev cc5_sem2_1 : DmaSem sig := 29
abbrev cc5_sem3_0 : DmaSem sig := 30
abbrev cc5_sem3_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37
abbrev cc6_sem3_0 : DmaSem sig := 38
abbrev cc6_sem3_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![4, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S256x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![4, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S256x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S2048x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![4, 16], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S2048x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S256x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S2048x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![4, 125], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S2048x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S256x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S2048x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

class Facts₀ : Prop where
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  bitsLt_bf16_f32 : FTy.bits .bf16 < FTy.bits .f32
  packedbf16_S256x1024_S256x1024_0_0 : (Rect.unit (s := S256x1024) ![0, 0] S256x1024.size inb_S256x1024_S256x1024_0_0).PackedRows (EltTy.packing .bf16)
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  broadcasts_S256x1_S256x2048 : S256x1.Broadcasts S256x2048
  packedbf16_S256x2048_S256x2048_0_0 : (Rect.unit (s := S256x2048) ![0, 0] S256x2048.size inb_S256x2048_S256x2048_0_0).PackedRows (EltTy.packing .bf16)
  shapeCasts_S2048_S1x2048 : S2048.ShapeCasts S1x2048
  inb_S2048x1024_S2048x1024_0_0 : ∀ a, (![0, 0] : Fin 2 → Nat) a + S2048x1024.size a ≤ S2048x1024.size a
  h_S2048x1024 : 0 < S2048x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S256x2048_S256x2048 : S256x2048.ShapeCasts S256x2048
  shapeCasts_S4096_S1x4096 : S4096.ShapeCasts S1x4096
  shapeCasts_S32000_S1x32000 : S32000.ShapeCasts S1x32000
  dot_S2048x1024_S256x1024_S2048x256_1_1_0_0_n_n_wf : DotDims.WF S2048x1024 S256x1024 S2048x256 [1] [1] [0] [0] [] []
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x1024.size a
  hwx0_1 : ∀ i : grid0.Coords, EltTy.bits .bf16 = 32 ∨ (Rect.block (s := S2048x1024) S256x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .f32 = 32 ∨ (Rect.block (s := S2048x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2048x2048.size a
  hwx1_1 : ∀ i : grid1.Coords, EltTy.bits .bf16 = 32 ∨ (Rect.block (s := S2048x2048) S256x2048.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S4096x2048.size a
  hwx2_0 : ∀ i : grid2.Coords, EltTy.bits .f32 = 32 ∨ (Rect.block (s := S4096x2048) S256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S4096x2048.size a
  hwx2_1 : ∀ i : grid2.Coords, EltTy.bits .bf16 = 32 ∨ (Rect.block (s := S4096x2048) S256x2048.size (cc2_transform_1 i) (hinb2_1 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2048.size a ≤ S32000x2048.size a
  hwx3_0 : ∀ i : grid3.Coords, EltTy.bits .f32 = 32 ∨ (Rect.block (s := S32000x2048) S256x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S32000x2048.size a
  hwx3_1 : ∀ i : grid3.Coords, EltTy.bits .bf16 = 32 ∨ (Rect.block (s := S32000x2048) S256x2048.size (cc3_transform_1 i) (hinb3_1 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S8192x1024.size a
  hwx4_0 : ∀ i : grid4.Coords, EltTy.bits .f32 = 32 ∨ (Rect.block (s := S8192x1024) S2048x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x1024.size a ≤ S2048x1024.size a
  hwx4_1 : ∀ i : grid4.Coords, EltTy.bits .bf16 = 32 ∨ (Rect.block (s := S2048x1024) S256x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x2048.size a
  hwx4_2 : ∀ i : grid4.Coords, EltTy.bits .f32 = 32 ∨ (Rect.block (s := S1x2048) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x256.size a ≤ S8192x2048.size a
  hwx4_3 : ∀ i : grid4.Coords, EltTy.bits .bf16 = 32 ∨ (Rect.block (s := S8192x2048) S2048x256.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x2048.size a ≤ S8192x2048.size a
  hwx5_0 : ∀ i : grid5.Coords, EltTy.bits .bf16 = 32 ∨ (Rect.block (s := S8192x2048) S2048x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x2048.size a ≤ S2048x2048.size a
  hwx5_1 : ∀ i : grid5.Coords, EltTy.bits .bf16 = 32 ∨ (Rect.block (s := S2048x2048) S256x2048.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x2048.size a
  hwx5_2 : ∀ i : grid5.Coords, EltTy.bits .f32 = 32 ∨ (Rect.block (s := S1x2048) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x256.size a ≤ S8192x2048.size a
  hwx5_3 : ∀ i : grid5.Coords, EltTy.bits .bf16 = 32 ∨ (Rect.block (s := S8192x2048) S2048x256.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x2048.size a ≤ S8192x2048.size a
  hwx6_0 : ∀ i : grid6.Coords, EltTy.bits .bf16 = 32 ∨ (Rect.block (s := S8192x2048) S2048x2048.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x2048.size a ≤ S4096x2048.size a
  hwx6_1 : ∀ i : grid6.Coords, EltTy.bits .bf16 = 32 ∨ (Rect.block (s := S4096x2048) S256x2048.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x4096.size a
  hwx6_2 : ∀ i : grid6.Coords, EltTy.bits .f32 = 32 ∨ (Rect.block (s := S1x4096) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x256.size a ≤ S8192x4096.size a
  hwx6_3 : ∀ i : grid6.Coords, EltTy.bits .f32 = 32 ∨ (Rect.block (s := S8192x4096) S2048x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x2048.size a ≤ S8192x2048.size a
  hwx7_0 : ∀ i : grid7.Coords, EltTy.bits .bf16 = 32 ∨ (Rect.block (s := S8192x2048) S2048x2048.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S256x2048.size a ≤ S32000x2048.size a
  hwx7_1 : ∀ i : grid7.Coords, EltTy.bits .bf16 = 32 ∨ (Rect.block (s := S32000x2048) S256x2048.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x32000.size a
  hwx7_2 : ∀ i : grid7.Coords, EltTy.bits .f32 = 32 ∨ (Rect.block (s := S1x32000) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x256.size a ≤ S8192x32000.size a
  hwx7_3 : ∀ i : grid7.Coords, EltTy.bits .f32 = 32 ∨ (Rect.block (s := S8192x32000) S2048x256.size (cc7_transform_3 i) (hinb7_3 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg3) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg5) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x2048.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg7) S256x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S256x2048.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_arg0) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S256x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v5) S2048x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v5) S2048x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S256x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6) S1x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v7) S2048x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v7) S2048x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v2) S256x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v8) S1x256.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v9) S2048x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v7) S2048x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v3) S256x2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v10) S1x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v11) S2048x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S2048 : Shape := ⟨1, ![2048]⟩
abbrev S2048x2048 : Shape := ⟨2, ![2048, 2048]⟩
abbrev S4096x2048 : Shape := ⟨2, ![4096, 2048]⟩
abbrev S4096 : Shape := ⟨1, ![4096]⟩
abbrev S32000x2048 : Shape := ⟨2, ![32000, 2048]⟩
abbrev S32000 : Shape := ⟨1, ![32000]⟩
abbrev S_ : Shape := ⟨0, ![]⟩
abbrev S2048x1 : Shape := ⟨2, ![2048, 1]⟩
abbrev S1024x2048 : Shape := ⟨2, ![1024, 2048]⟩
abbrev S8192x2048 : Shape := ⟨2, ![8192, 2048]⟩
abbrev S1x2048 : Shape := ⟨2, ![1, 2048]⟩
abbrev S4096x1 : Shape := ⟨2, ![4096, 1]⟩
abbrev S2048x4096 : Shape := ⟨2, ![2048, 4096]⟩
abbrev S8192x4096 : Shape := ⟨2, ![8192, 4096]⟩
abbrev S1x4096 : Shape := ⟨2, ![1, 4096]⟩
abbrev S32000x1 : Shape := ⟨2, ![32000, 1]⟩
abbrev S2048x32000 : Shape := ⟨2, ![2048, 32000]⟩
abbrev S8192x32000 : Shape := ⟨2, ![8192, 32000]⟩
abbrev S1x32000 : Shape := ⟨2, ![1, 32000]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S2048x1024, .f32⟩
  | 2 => ⟨S2048, .f32⟩
  | 3 => ⟨S2048x2048, .f32⟩
  | 4 => ⟨S2048, .f32⟩
  | 5 => ⟨S4096x2048, .f32⟩
  | 6 => ⟨S4096, .f32⟩
  | 7 => ⟨S32000x2048, .f32⟩
  | 8 => ⟨S32000, .f32⟩
  | 9 => ⟨S2048x1024, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S_, .f32⟩
  | 17 => ⟨S2048x1, .f32⟩
  | 18 => ⟨S2048x1, .f32⟩
  | 19 => ⟨S2048x1024, .f32⟩
  | 20 => ⟨S2048x1024, .i1⟩
  | 21 => ⟨S2048x1, .f32⟩
  | 22 => ⟨S2048x1024, .f32⟩
  | 23 => ⟨S2048x1024, .i1⟩
  | 24 => ⟨S_, .f32⟩
  | 25 => ⟨S_, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S1024x2048, .f32⟩
  | 36 => ⟨S8192x2048, .f32⟩
  | 37 => ⟨S1x2048, .f32⟩
  | 38 => ⟨S8192x2048, .f32⟩
  | 39 => ⟨S8192x2048, .f32⟩
  | 40 => ⟨S_, .f32⟩
  | 41 => ⟨S8192x2048, .f32⟩
  | 42 => ⟨S8192x2048, .f32⟩
  | 43 => ⟨S2048x2048, .f32⟩
  | 44 => ⟨S_, .f32⟩
  | 45 => ⟨S2048, .f32⟩
  | 46 => ⟨S2048x1, .f32⟩
  | 47 => ⟨S_, .f32⟩
  | 48 => ⟨S2048x1, .f32⟩
  | 49 => ⟨S2048x1, .f32⟩
  | 50 => ⟨S_, .f32⟩
  | 51 => ⟨S2048x1, .f32⟩
  | 52 => ⟨S2048x1, .f32⟩
  | 53 => ⟨S2048x2048, .f32⟩
  | 54 => ⟨S2048x2048, .i1⟩
  | 55 => ⟨S2048x1, .f32⟩
  | 56 => ⟨S2048x2048, .f32⟩
  | 57 => ⟨S2048x2048, .i1⟩
  | 58 => ⟨S_, .f32⟩
  | 59 => ⟨S_, .f32⟩
  | 60 => ⟨S2048x2048, .f32⟩
  | 61 => ⟨S2048x2048, .f32⟩
  | 62 => ⟨S2048x2048, .f32⟩
  | 63 => ⟨S_, .f32⟩
  | 64 => ⟨S2048x2048, .f32⟩
  | 65 => ⟨S2048x2048, .f32⟩
  | 66 => ⟨S2048x2048, .f32⟩
  | 67 => ⟨S2048x2048, .f32⟩
  | 68 => ⟨S2048x2048, .f32⟩
  | 69 => ⟨S2048x2048, .f32⟩
  | 70 => ⟨S8192x2048, .f32⟩
  | 71 => ⟨S1x2048, .f32⟩
  | 72 => ⟨S8192x2048, .f32⟩
  | 73 => ⟨S8192x2048, .f32⟩
  | 74 => ⟨S_, .f32⟩
  | 75 => ⟨S8192x2048, .f32⟩
  | 76 => ⟨S8192x2048, .f32⟩
  | 77 => ⟨S4096x2048, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x2048, .f32⟩
  | 88 => ⟨S4096x2048, .i1⟩
  | 89 => ⟨S4096x1, .f32⟩
  | 90 => ⟨S4096x2048, .f32⟩
  | 91 => ⟨S4096x2048, .i1⟩
  | 92 => ⟨S_, .f32⟩
  | 93 => ⟨S_, .f32⟩
  | 94 => ⟨S4096x2048, .f32⟩
  | 95 => ⟨S4096x2048, .f32⟩
  | 96 => ⟨S4096x2048, .f32⟩
  | 97 => ⟨S_, .f32⟩
  | 98 => ⟨S4096x2048, .f32⟩
  | 99 => ⟨S4096x2048, .f32⟩
  | 100 => ⟨S4096x2048, .f32⟩
  | 101 => ⟨S4096x2048, .f32⟩
  | 102 => ⟨S4096x2048, .f32⟩
  | 103 => ⟨S2048x4096, .f32⟩
  | 104 => ⟨S8192x4096, .f32⟩
  | 105 => ⟨S1x4096, .f32⟩
  | 106 => ⟨S8192x4096, .f32⟩
  | 107 => ⟨S8192x4096, .f32⟩
  | 108 => ⟨S32000x2048, .f32⟩
  | 109 => ⟨S_, .f32⟩
  | 110 => ⟨S32000, .f32⟩
  | 111 => ⟨S32000x1, .f32⟩
  | 112 => ⟨S_, .f32⟩
  | 113 => ⟨S32000x1, .f32⟩
  | 114 => ⟨S32000x1, .f32⟩
  | 115 => ⟨S_, .f32⟩
  | 116 => ⟨S32000x1, .f32⟩
  | 117 => ⟨S32000x1, .f32⟩
  | 118 => ⟨S32000x2048, .f32⟩
  | 119 => ⟨S32000x2048, .i1⟩
  | 120 => ⟨S32000x1, .f32⟩
  | 121 => ⟨S32000x2048, .f32⟩
  | 122 => ⟨S32000x2048, .i1⟩
  | 123 => ⟨S_, .f32⟩
  | 124 => ⟨S_, .f32⟩
  | 125 => ⟨S32000x2048, .f32⟩
  | 126 => ⟨S32000x2048, .f32⟩
  | 127 => ⟨S32000x2048, .f32⟩
  | _ => ⟨S8192x1024, .f32⟩

abbrev hbmTy0_1 (i : Nat) : BufTy := match i % 128 with
  | 0 => ⟨S_, .f32⟩
  | 1 => ⟨S32000x2048, .f32⟩
  | 2 => ⟨S32000x2048, .f32⟩
  | 3 => ⟨S32000x2048, .f32⟩
  | 4 => ⟨S32000x2048, .f32⟩
  | 5 => ⟨S32000x2048, .f32⟩
  | 6 => ⟨S2048x32000, .f32⟩
  | 7 => ⟨S8192x32000, .f32⟩
  | 8 => ⟨S1x32000, .f32⟩
  | 9 => ⟨S8192x32000, .f32⟩
  | 10 => ⟨S8192x32000, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_4 : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call2_cst : Ref sig .tc := ⟨.hbm, 40, rfl⟩
abbrev main_call2_v0 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_cst_9 : Ref sig .tc := ⟨.hbm, 59, rfl⟩
abbrev main_call3_v0 : Ref sig .tc := ⟨.hbm, 60, rfl⟩
abbrev main_call3_v1 : Ref sig .tc := ⟨.hbm, 61, rfl⟩
abbrev main_v35 : Ref sig .tc := ⟨.hbm, 62, rfl⟩
abbrev main_cst_10 : Ref sig .tc := ⟨.hbm, 63, rfl⟩
abbrev main_call4_v0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call5_cst : Ref sig .tc := ⟨.hbm, 74, rfl⟩
abbrev main_call5_v0 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_cst_15 : Ref sig .tc := ⟨.hbm, 93, rfl⟩
abbrev main_call6_v0 : Ref sig .tc := ⟨.hbm, 94, rfl⟩
abbrev main_call6_v1 : Ref sig .tc := ⟨.hbm, 95, rfl⟩
abbrev main_v58 : Ref sig .tc := ⟨.hbm, 96, rfl⟩
abbrev main_cst_16 : Ref sig .tc := ⟨.hbm, 97, rfl⟩
abbrev main_call7_v0 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_17 : Ref sig .tc := ⟨.hbm, 109, rfl⟩
abbrev main_v69 : Ref sig .tc := ⟨.hbm, 110, rfl⟩
abbrev main_v70 : Ref sig .tc := ⟨.hbm, 111, rfl⟩
abbrev main_cst_18 : Ref sig .tc := ⟨.hbm, 112, rfl⟩
abbrev main_v71 : Ref sig .tc := ⟨.hbm, 113, rfl⟩
abbrev main_v72 : Ref sig .tc := ⟨.hbm, 114, rfl⟩
abbrev main_cst_19 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_20 : Ref sig .tc := ⟨.hbm, 123, rfl⟩
abbrev main_cst_21 : Ref sig .tc := ⟨.hbm, 124, rfl⟩
abbrev main_call8_v0 : Ref sig .tc := ⟨.hbm, 125, rfl⟩
abbrev main_call8_v1 : Ref sig .tc := ⟨.hbm, 126, rfl⟩
abbrev main_v80 : Ref sig .tc := ⟨.hbm, 127, rfl⟩
abbrev main_cst_22 : Ref sig .tc := ⟨.hbm, 128, rfl⟩
abbrev main_call9_v0 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S_S2048x1024 : S_.BroadcastsInDim S2048x1024 (![] : Fin 0 → Fin S2048x1024.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  reducesTo_S2048x2048_S2048_d1 : S2048x2048.ReducesTo [1] S2048
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  transposes_S2048x2048_S2048x2048_1_0 : S2048x2048.Transposes [1, 0] S2048x2048
  reducesTo_S4096x2048_S4096_d1 : S4096x2048.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S32000x2048_S32000_d1 : S32000x2048.ReducesTo [1] S32000
  bcast_S32000_S32000x1_0 : S32000.BroadcastsInDim S32000x1 (![0] : Fin 1 → Fin S32000x1.rank)
  bcast_S_S32000x1 : S_.BroadcastsInDim S32000x1 (![] : Fin 0 → Fin S32000x1.rank)
  bcast_S32000x1_S32000x2048_0_1 : S32000x1.BroadcastsInDim S32000x2048 (![0, 1] : Fin 2 → Fin S32000x2048.rank)
  bcast_S_S32000x2048 : S_.BroadcastsInDim S32000x2048 (![] : Fin 0 → Fin S32000x2048.rank)
  transposes_S32000x2048_S2048x32000_1_0 : S32000x2048.Transposes [1, 0] S2048x32000
  bcast_S32000_S1x32000_1 : S32000.BroadcastsInDim S1x32000 (![1] : Fin 1 → Fin S1x32000.rank)
  bcast_S1x32000_S8192x32000_0_1 : S1x32000.BroadcastsInDim S8192x32000 (![0, 1] : Fin 2 → Fin S8192x32000.rank)
  dot_S8192x1024_S1024x2048_S8192x2048_1_0_0_1_n_n_wf : DotDims.WF S8192x1024 S1024x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x4096_S8192x4096_1_0_0_1_n_n_wf : DotDims.WF S8192x2048 S2048x4096 S8192x4096 [1] [0] [0] [1] [] []
  dot_S8192x2048_S2048x32000_S8192x32000_1_0_0_1_n_n_wf : DotDims.WF S8192x2048 S2048x32000 S8192x32000 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x2048_S2048x32000_S8192x32000_1_0_0_1_n_n : DotDims S8192x2048 S2048x32000 S8192x32000 where
  lhsContracting := [1]
  rhsContracting := [0]
  lhsNonContracting := [0]
  rhsNonContracting := [1]
  lhsBatch := []
  rhsBatch := []
  wf := dot_S8192x2048_S2048x32000_S8192x32000_1_0_0_1_n_n_wf

class Facts : Prop extends Facts₀ where

variable [Facts]
-- ==== Proof.Spec.lean ====
/-
  The ternary decoder as one function of its nine argument arrays, over the extended reals.

  A weight row `w` of length K has the threshold `t = c · ((Σ_k |w_k|) / K)` (`c` the f32 nearest 0.7, `|x| = max x (−x)`);
  its quantized entry is 1 where `w_k > t`, −1 where `w_k < 0 − t`, and 0 otherwise.  A dense layer multiplies the rows of
  its input with the quantized weight rows and adds the bias: `y_{ij} = Σ_k x_{ik} · q_{jk} + b_j`.  The decoder is two
  such layers, each followed by `max · 0`, and two heads (tier 1, tier 2) on the second hidden layer.
  Everything is stated row by row, so that a block of rows of an array and the whole array give the same entries.
-/
import Idealize.ShloMosaic.PureOps.Ideal
import Idealize.ShloMosaic.Lib.ValueIdx

noncomputable section

namespace Cert.Tern

open Idealize.ShloMosaic Idealize.ShloMosaic.ValueIdx
open scoped BigOperators

/-- The f32 literals of both programs, as the extended reals they denote. -/
abbrev c07 : EReal := Ideal.ofBits .f32 0x3F333333#32
abbrev cZero : EReal := Ideal.ofBits .f32 0x00000000#32
abbrev cOne : EReal := Ideal.ofBits .f32 0x3F800000#32
abbrev cNegOne : EReal := Ideal.ofBits .f32 0xBF800000#32
/-- The row lengths 1024 and 2048 as f32 literals. -/
abbrev d1024 : EReal := Ideal.ofBits .f32 0x44800000#32
abbrev d2048 : EReal := Ideal.ofBits .f32 0x45000000#32

/-- A 2-d shape with the given extents. -/
abbrev Sh2 (a b : ℕ) : Shape := ⟨2, ![a, b]⟩
abbrev Sh1 (a : ℕ) : Shape := ⟨1, ![a]⟩

/-- The threshold of one weight row: `c · (Σ_k |w_k| / d)`, `d` the row length as a float. -/
def thr {K : ℕ} (d : EReal) (row : Fin K → EReal) : EReal :=
  c07 * Ideal.div (∑ k : Fin K, max (row k) (-(row k))) d

/-- The ternary value of an entry `x` against a threshold `t`. -/
def tern (t x : EReal) : EReal :=
  Scalar.select (Ideal.cmp .ogt x t) cOne (Scalar.select (Ideal.cmp .olt x (cZero - t)) cNegOne cZero)

/-- The quantized entry of a row at column `k`. -/
def qrow {K : ℕ} (d : EReal) (row : Fin K → EReal) (k : Fin K) : EReal := tern (thr d row) (row k)

/-- One entry of a dense layer: the product of an input row with a weight row, plus the bias. -/
def dot {K : ℕ} (xrow qr : Fin K → EReal) (b : EReal) : EReal := (∑ k : Fin K, xrow k * qr k) + b

/-- Row `r` of a matrix. -/
abbrev row {R K : ℕ} (w : (Sh2 R K).Idx → EReal) (r : Fin R) : Fin K → EReal := fun k => w (ix2 r k)

/-- The quantized weight matrix. -/
def quant {R K : ℕ} (d : EReal) (w : (Sh2 R K).Idx → EReal) : (Sh2 R K).Idx → EReal :=
  fun i => qrow d (row w (i 0)) (i 1)

/-- A dense layer with weights `q` (one row per output channel) and bias `b`. -/
def dense {M K N : ℕ} (x : (Sh2 M K).Idx → EReal) (q : (Sh2 N K).Idx → EReal) (b : (Sh1 N).Idx → EReal) :
    (Sh2 M N).Idx → EReal :=
  fun i => dot (row x (i 0)) (row q (i 1)) (b (ix1 (i 1)))

/-- `max · 0`, entry by entry. -/
def relu {S : Shape} (y : S.Idx → EReal) : S.Idx → EReal := fun i => max (y i) cZero

/-- The second hidden layer. -/
def hidden (x : (Sh2 8192 1024).Idx → EReal) (w1 : (Sh2 2048 1024).Idx → EReal) (b1 : (Sh1 2048).Idx → EReal)
    (w2 : (Sh2 2048 2048).Idx → EReal) (b2 : (Sh1 2048).Idx → EReal) : (Sh2 8192 2048).Idx → EReal :=
  relu (dense (relu (dense x (quant d1024 w1) b1)) (quant d2048 w2) b2)

/-- The two heads. -/
def tier1 (x : (Sh2 8192 1024).Idx → EReal) (w1 : (Sh2 2048 1024).Idx → EReal) (b1 : (Sh1 2048).Idx → EReal)
    (w2 : (Sh2 2048 2048).Idx → EReal) (b2 : (Sh1 2048).Idx → EReal)
    (wt1 : (Sh2 4096 2048).Idx → EReal) (bt1 : (Sh1 4096).Idx → EReal) : (Sh2 8192 4096).Idx → EReal :=
  dense (hidden x w1 b1 w2 b2) (quant d2048 wt1) bt1

def tier2 (x : (Sh2 8192 1024).Idx → EReal) (w1 : (Sh2 2048 1024).Idx → EReal) (b1 : (Sh1 2048).Idx → EReal)
    (w2 : (Sh2 2048 2048).Idx → EReal) (b2 : (Sh1 2048).Idx → EReal)
    (wt2 : (Sh2 32000 2048).Idx → EReal) (bt2 : (Sh1 32000).Idx → EReal) : (Sh2 8192 32000).Idx → EReal :=
  dense (hidden x w1 b1 w2 b2) (quant d2048 wt2) bt2

/-- Two rows that agree entry by entry have the same quantized entries. -/
theorem qrow_congr {K : ℕ} (d : EReal) {r₁ r₂ : Fin K → EReal} (h : ∀ k, r₁ k = r₂ k) (k : Fin K) :
    qrow d r₁ k = qrow d r₂ k := by
  have : r₁ = r₂ := funext h
  rw [this]

/-- For a finite `x`, adding back what was subtracted returns the other term: `x + (q − x) = q` for every extended real `q`. -/
theorem add_sub_cancel_real (r : ℝ) (q : EReal) : (r : EReal) + (q - (r : EReal)) = q := by
  induction q using EReal.rec with
  | bot => simp
  | top => simp
  | coe s =>
    rw [← EReal.coe_sub, ← EReal.coe_add]
    congr 1
    ring

end Cert.Tern

end
-- ==== Proof.KRun.lean ====
/-
  The idealized kernel's run with its two results named.

  The program is twelve segments: four quantize regions, then four times a reshape of a bias vector followed by a matmul
  region.  The contents of every unscoped buffer at each segment boundary are a fold from the launch memory (the fold's
  last stage is `W12`); running the segments from the launch leaves every such buffer at its `W12` contents.  Read at the
  two result buffers and at the nine arguments this is the statement below; what `W12` holds at the results is computed
  in the module that walks the fold back.
-/
import proofs.«177872_j77824807404254_2_alg».proof.Proof.Gen.KernelIdeal.Frame

set_option maxRecDepth 16384

noncomputable section

namespace Cert.Tern.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the launch terminates without a fault, with the two result buffers at the last
    boundary's contents and the arguments as launched. -/
theorem run : θ_run defs (onTc (τ := τ) (main (F := F))) ⟨m, fun _ => 0, ρ⟩ (fun r => ∀ c : Dev nD,
      r.2.mem ((c.tc : Thread nD τ).loc main_v9) = W12 m ρ c (Proc.devRef .tc main_v9)
      ∧ r.2.mem ((c.tc : Thread nD τ).loc main_v11) = W12 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v9 (by decide)),
       h c _ (mem_uc main_v11 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.Tern.KRun

end
-- ==== Proof.KDense.lean ====
/-
  A dense layer whose bias is kept as a one-row matrix, and the congruences used to compare a block with the whole array.

  The kernel passes each bias vector b of length N to its matmul regions as the [1, N] matrix with the same entries; the
  layer's entry (i, j) is then the product of input row i with weight row j plus the matrix entry (0, j), which is b_j.
-/
import proofs.«177872_j77824807404254_2_alg».proof.Proof.Spec
import Idealize.ShloMosaic.Lib.ValueIdx
import Idealize.ShloMosaic.Lib.ValueLayout
import Idealize.ShloMosaic.Lib.Pipeline.Value

noncomputable section

namespace Cert.Tern

open Idealize.ShloMosaic Idealize.ShloMosaic.ValueIdx
open scoped BigOperators

/-- A dense layer with the bias given as a [1, N] matrix. -/
def dense2 {M K N : ℕ} (x : (Sh2 M K).Idx → EReal) (q : (Sh2 N K).Idx → EReal) (b : (Sh2 1 N).Idx → EReal) :
    (Sh2 M N).Idx → EReal :=
  fun i => dot (row x (i 0)) (row q (i 1)) (b (ix2 (0 : Fin 1) (i 1)))

/-- Rows and biases that agree give the same entry. -/
theorem dot_congr {K : ℕ} {x₁ x₂ q₁ q₂ : Fin K → EReal} {b₁ b₂ : EReal} (hx : ∀ k, x₁ k = x₂ k) (hq : ∀ k, q₁ k = q₂ k)
    (hb : b₁ = b₂) : dot x₁ q₁ b₁ = dot x₂ q₂ b₂ := by
  have e1 : x₁ = x₂ := funext hx
  have e2 : q₁ = q₂ := funext hq
  rw [e1, e2, hb]

/-- With the bias vector recast as a one-row matrix, the layer is the specification's dense layer. -/
theorem dense2_cast {M K N : ℕ} (x : (Sh2 M K).Idx → EReal) (q : (Sh2 N K).Idx → EReal) (b : (Sh1 N).Idx → EReal)
    (h : (Sh1 N).ShapeCasts (Sh2 1 N)) : dense2 x q (shapeCast (Sh2 1 N) b h) = dense x q b := by
  funext i
  show dot _ _ (shapeCast (Sh2 1 N) b h (ix2 (0 : Fin 1) (i 1))) = dot _ _ (b (ix1 (i 1)))
  exact congrArg (dot (row x (i 0)) (row q (i 1))) (shapeCast_a_1a_apply b h (0 : Fin 1) (i 1))

end Cert.Tern

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.KQuant.lean ====
/-
  The four quantize bodies read at an entry of their block.

  A block holds 256 whole weight rows.  At row r, column k the body's result is the ternary value of the entry w_{rk}
  against the threshold of row r: the row's sum of absolute values (a lane reduction, which over the extended reals is
  the plain sum), divided by the row length, times the literal 0.7; the keep-dims column and its broadcast along the
  row read that one number at every column.
-/
import proofs.«177872_j77824807404254_2_alg».proof.Proof.Gen.KernelIdeal.Skeleton
import proofs.«177872_j77824807404254_2_alg».proof.Proof.Spec
import proofs.«177872_j77824807404254_2_alg».proof.Proof.LibLayout
import Idealize.ShloMosaic.PureOps.Ideal.Laws
import Idealize.ShloMosaic.Lib.ValueIdx

noncomputable section

namespace Cert.Tern.KBody

open Idealize.ShloMosaic Idealize.ShloMosaic.ValueIdx Cert.Tern Cert.Bridge.Layout
open Cert.KernelIdeal Cert.KernelIdeal.Gen
open scoped BigOperators

/-- The ternary value of `x` against the threshold made from a row sum `s` and the row length `d`. -/
def ternOf (s d x : EReal) : EReal := tern (c07 * Ideal.div s d) x

/-- The row sum of absolute values inside the quantize body 0, at row `r`. -/
theorem k0_rowsum (v0 : FVec Ideal S256x1024 .f32) (r : Fin 256) :
    multiReduction .add [1] S256 (absf v0) 0x00000000#32 reduces_S256x1024_S256 (.inl rfl) rfl (ix1 r)
      = ∑ k : Fin 1024, max (v0 (ix2 r k)) (-(v0 (ix2 r k))) := by
  refine (Ideal.multiReduction_add_single (absf v0) 0x00000000#32 reduces_S256x1024_S256 (.inl rfl) rfl (ix1 r)).trans ?_
  refine Finset.sum_congr rfl fun k _ => ?_
  show max (v0 _) (-(v0 _)) = _
  have e : reduces_S256x1024_S256.lift (ix1 r) k = ix2 r k :=
    funext fun a => Fin.ext (by match a with | ⟨0, _⟩ => rfl | ⟨1, _⟩ => rfl)
  exact congrArg (fun j => max (v0 j) (-(v0 j))) e

/-- The quantize body 0 at row `r`, column `k` of its block: the ternary value of the entry against its row's threshold. -/
theorem k0_pay1_apply (v0 : FVec Ideal S256x1024 .f32) (r : Fin 256) (k : Fin 1024) :
    k0_pay1 (F := Ideal) v0 (ix2 r k) = qrow d1024 (row v0 r) k := by
  unfold k0_pay1
  simp only [truncf_apply, select_apply, cmpf_apply, broadcast_apply, subf_apply, mulf_apply, divf_apply,
    broadcastTo_a1_an_apply, shapeCast_a_a1_apply]
  exact (show _ = ternOf (multiReduction .add [1] S256 (absf v0) 0x00000000#32 reduces_S256x1024_S256 (.inl rfl) rfl (ix1 r))
      d1024 (v0 (ix2 r k)) from rfl).trans (congrArg (fun s => ternOf s d1024 (v0 (ix2 r k))) (k0_rowsum v0 r))

/-- The row sum of absolute values inside the quantize body 1, at row `r`. -/
theorem k1_rowsum (v0 : FVec Ideal S256x2048 .f32) (r : Fin 256) :
    multiReduction .add [1] S256 (absf v0) 0x00000000#32 reduces_S256x2048_S256 (.inl rfl) rfl (ix1 r)
      = ∑ k : Fin 2048, max (v0 (ix2 r k)) (-(v0 (ix2 r k))) := by
  refine (Ideal.multiReduction_add_single (absf v0) 0x00000000#32 reduces_S256x2048_S256 (.inl rfl) rfl (ix1 r)).trans ?_
  refine Finset.sum_congr rfl fun k _ => ?_
  show max (v0 _) (-(v0 _)) = _
  have e : reduces_S256x2048_S256.lift (ix1 r) k = ix2 r k :=
    funext fun a => Fin.ext (by match a with | ⟨0, _⟩ => rfl | ⟨1, _⟩ => rfl)
  exact congrArg (fun j => max (v0 j) (-(v0 j))) e

/-- The quantize body 1 at row `r`, column `k` of its block: the ternary value of the entry against its row's threshold. -/
theorem k1_pay1_apply (v0 : FVec Ideal S256x2048 .f32) (r : Fin 256) (k : Fin 2048) :
    k1_pay1 (F := Ideal) v0 (ix2 r k) = qrow d2048 (row v0 r) k := by
  unfold k1_pay1
  simp only [truncf_apply, select_apply, cmpf_apply, broadcast_apply, subf_apply, mulf_apply, divf_apply,
    broadcastTo_a1_an_apply, shapeCast_a_a1_apply]
  exact (show _ = ternOf (multiReduction .add [1] S256 (absf v0) 0x00000000#32 reduces_S256x2048_S256 (.inl rfl) rfl (ix1 r))
      d2048 (v0 (ix2 r k)) from rfl).trans (congrArg (fun s => ternOf s d2048 (v0 (ix2 r k))) (k1_rowsum v0 r))

/-- The row sum of absolute values inside the quantize body 2, at row `r`. -/
theorem k2_rowsum (v0 : FVec Ideal S256x2048 .f32) (r : Fin 256) :
    multiReduction .add [1] S256 (absf v0) 0x00000000#32 reduces_S256x2048_S256 (.inl rfl) rfl (ix1 r)
      = ∑ k : Fin 2048, max (v0 (ix2 r k)) (-(v0 (ix2 r k))) := by
  refine (Ideal.multiReduction_add_single (absf v0) 0x00000000#32 reduces_S256x2048_S256 (.inl rfl) rfl (ix1 r)).trans ?_
  refine Finset.sum_congr rfl fun k _ => ?_
  show max (v0 _) (-(v0 _)) = _
  have e : reduces_S256x2048_S256.lift (ix1 r) k = ix2 r k :=
    funext fun a => Fin.ext (by match a with | ⟨0, _⟩ => rfl | ⟨1, _⟩ => rfl)
  exact congrArg (fun j => max (v0 j) (-(v0 j))) e

/-- The quantize body 2 at row `r`, column `k` of its block: the ternary value of the entry against its row's threshold. -/
theorem k2_pay1_apply (v0 : FVec Ideal S256x2048 .f32) (r : Fin 256) (k : Fin 2048) :
    k2_pay1 (F := Ideal) v0 (ix2 r k) = qrow d2048 (row v0 r) k := by
  unfold k2_pay1
  simp only [truncf_apply, select_apply, cmpf_apply, broadcast_apply, subf_apply, mulf_apply, divf_apply,
    broadcastTo_a1_an_apply, shapeCast_a_a1_apply]
  exact (show _ = ternOf (multiReduction .add [1] S256 (absf v0) 0x00000000#32 reduces_S256x2048_S256 (.inl rfl) rfl (ix1 r))
      d2048 (v0 (ix2 r k)) from rfl).trans (congrArg (fun s => ternOf s d2048 (v0 (ix2 r k))) (k2_rowsum v0 r))

/-- The row sum of absolute values inside the quantize body 3, at row `r`. -/
theorem k3_rowsum (v0 : FVec Ideal S256x2048 .f32) (r : Fin 256) :
    multiReduction .add [1] S256 (absf v0) 0x00000000#32 reduces_S256x2048_S256 (.inl rfl) rfl (ix1 r)
      = ∑ k : Fin 2048, max (v0 (ix2 r k)) (-(v0 (ix2 r k))) := by
  refine (Ideal.multiReduction_add_single (absf v0) 0x00000000#32 reduces_S256x2048_S256 (.inl rfl) rfl (ix1 r)).trans ?_
  refine Finset.sum_congr rfl fun k _ => ?_
  show max (v0 _) (-(v0 _)) = _
  have e : reduces_S256x2048_S256.lift (ix1 r) k = ix2 r k :=
    funext fun a => Fin.ext (by match a with | ⟨0, _⟩ => rfl | ⟨1, _⟩ => rfl)
  exact congrArg (fun j => max (v0 j) (-(v0 j))) e

/-- The quantize body 3 at row `r`, column `k` of its block: the ternary value of the entry against its row's threshold. -/
theorem k3_pay1_apply (v0 : FVec Ideal S256x2048 .f32) (r : Fin 256) (k : Fin 2048) :
    k3_pay1 (F := Ideal) v0 (ix2 r k) = qrow d2048 (row v0 r) k := by
  unfold k3_pay1
  simp only [truncf_apply, select_apply, cmpf_apply, broadcast_apply, subf_apply, mulf_apply, divf_apply,
    broadcastTo_a1_an_apply, shapeCast_a_a1_apply]
  exact (show _ = ternOf (multiReduction .add [1] S256 (absf v0) 0x00000000#32 reduces_S256x2048_S256 (.inl rfl) rfl (ix1 r))
      d2048 (v0 (ix2 r k)) from rfl).trans (congrArg (fun s => ternOf s d2048 (v0 (ix2 r k))) (k3_rowsum v0 r))

end Cert.Tern.KBody

end
-- ==== Proof.KReg0.lean ====
/-
  Quantize region 0: the array it leaves is the quantized weight matrix.

  The grid has 8 points; point t reads rows 256·t … 256·t + 255 of the [2048, 1024] weight array (whole rows) and writes the same
  rows of the output.  An entry of the quantized matrix depends only on its own row, so the block a point writes back is
  that block of the whole quantized matrix, and the 8 blocks tile the array.
-/
import proofs.«177872_j77824807404254_2_alg».proof.Proof.Gen.KernelIdeal.Frame
import proofs.«177872_j77824807404254_2_alg».proof.Proof.KQuant

set_option maxRecDepth 16384

noncomputable section

namespace Cert.Tern.KReg0

open Idealize.ShloMosaic Idealize.ShloMosaic.TcCoe Idealize.ShloMosaic.ValueIdx Idealize.SL.Sem
open Idealize.ShloMosaic.Pipeline (Dat Cfg Window)
open Cert.Tern Cert.Tern.KBody Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input and the output window move together along the rows and stay at column block 0. -/
theorem idx_facts : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every row block is some point's. -/
theorem idx_onto : ∀ q0 : Fin 8, ∃ t : Fin cfg0.N, win0_1.index t = ![q0.val, 0] :=
  (by decide +kernel : ∀ q0 : Fin 8, ∃ t : Fin grid0.N, win0_1.index t = ![q0.val, 0])

/-- What point `t` writes back is its block of the quantized matrix of the array the region finds. -/
theorem flushed_eq (c : Dev nD) (t : Fin cfg0.N) :
    (dat0 V c).flushed 1 t = ((cfg0.win 1).blk t).view.read (Elt Ideal) (quant d1024 (V c main_arg1)) := by
  show (cfg0.win 1).cut (grid0.coords t) ((dat0 V c).after 1 t) = _
  rw [after0_1]
  unfold out0_1
  rw [View.canon_unit_zero hz]
  simp only [View.ld_unit_zero (S := S256x1024) hz]
  obtain ⟨e0, e1, e2⟩ := idx_facts t
  funext j
  obtain ⟨r, k, rfl⟩ : ∃ (r : Fin 256) (k : Fin 1024), j = ix2 r k := ⟨j 0, j 1, eq_ix2 j⟩
  refine (k0_pay1_apply (iblk0 V c 0 t) r k).trans ?_
  show qrow d1024 (row (iblk0 V c 0 t) r) k
    = qrow d1024 (row (V c main_arg1) ((((cfg0.win 1).blk t).view.emb (ix2 r k)) 0)) ((((cfg0.win 1).blk t).view.emb (ix2 r k)) 1)
  have hk : (((cfg0.win 1).blk t).view.emb (ix2 r k)) 1 = k := Fin.ext (by
    show win0_1.index t (1 : Fin 2) * 1024 + 1 * k.val = k.val
    omega)
  refine (qrow_congr d1024 (fun k' => ?_) k).trans (congrArg (qrow d1024 _) hk.symm)
  show V c main_arg1 (((cfg0.win 0).blk t).view.emb (ix2 r k')) = V c main_arg1 (ix2 ((((cfg0.win 1).blk t).view.emb (ix2 r k)) 0) k')
  refine congrArg (V c main_arg1) (funext fun a => Fin.ext ?_)
  match a with
  | ⟨0, _⟩ => show win0_0.index t (0 : Fin 2) * 256 + 1 * r.val = win0_1.index t (0 : Fin 2) * 256 + 1 * r.val; omega
  | ⟨1, _⟩ => show win0_0.index t (1 : Fin 2) * 1024 + 1 * k'.val = k'.val; omega

/-- An index of the array is in point `t`'s block iff each coordinate is in the block's range on its axis. -/
theorem mem_blk (t : Fin cfg0.N) (i : S2048x1024.Idx) :
    i ∈ ((cfg0.win 1).blk t).view.set ↔ ∀ a : Fin 2, win0_1.index t a * S256x1024.size a ≤ (i a).val
      ∧ (i a).val < win0_1.index t a * S256x1024.size a + S256x1024.size a := by
  show i ∈ ((View.whole main_v0).slice (win0_1.rect t)).set ↔ _
  rw [View.set_slice_whole, Rect.mem_set_unit]
  exact Iff.rfl

/-- Row i lies in the block of the point whose row block is i / 256. -/
theorem cover (i : S2048x1024.Idx) : ∃ t : Fin cfg0.N, (cfg0.win 1).flush t = true ∧ i ∈ ((cfg0.win 1).blk t).view.set := by
  have hi0 : (i 0).val < 2048 := (i 0).isLt
  have hi1 : (i 1).val < 1024 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1024 ≤ (i 1).val ∧ (i 1).val < win0_1.index t (1 : Fin 2) * 1024 + 1024; omega

/-- The output array after the region: the quantized matrix of the weight array as the region finds it. -/
theorem final (c : Dev nD) : (dat0 V c).arrAt 1 cfg0.N = quant d1024 (V c main_arg1) :=
  (dat0 V c).arrAt_eq_of_cover 1 (quant d1024 (V c main_arg1)) (fun t _ => flushed_eq V c t) cover

end Cert.Tern.KReg0

end
-- ==== Proof.KReg1.lean ====
/-
  Quantize region 1: the array it leaves is the quantized weight matrix.

  The grid has 8 points; point t reads rows 256·t … 256·t + 255 of the [2048, 2048] weight array (whole rows) and writes the same
  rows of the output.  An entry of the quantized matrix depends only on its own row, so the block a point writes back is
  that block of the whole quantized matrix, and the 8 blocks tile the array.
-/
import proofs.«177872_j77824807404254_2_alg».proof.Proof.Gen.KernelIdeal.Frame
import proofs.«177872_j77824807404254_2_alg».proof.Proof.KQuant

set_option maxRecDepth 16384

noncomputable section

namespace Cert.Tern.KReg1

open Idealize.ShloMosaic Idealize.ShloMosaic.TcCoe Idealize.ShloMosaic.ValueIdx Idealize.SL.Sem
open Idealize.ShloMosaic.Pipeline (Dat Cfg Window)
open Cert.Tern Cert.Tern.KBody Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input and the output window move together along the rows and stay at column block 0. -/
theorem idx_facts : ∀ t : Fin cfg1.N, win1_0.index t (0 : Fin 2) = win1_1.index t (0 : Fin 2)
    ∧ win1_0.index t (1 : Fin 2) = 0 ∧ win1_1.index t (1 : Fin 2) = 0 :=
  (by decide +kernel : ∀ t : Fin grid1.N, _)

/-- Every row block is some point's. -/
theorem idx_onto : ∀ q0 : Fin 8, ∃ t : Fin cfg1.N, win1_1.index t = ![q0.val, 0] :=
  (by decide +kernel : ∀ q0 : Fin 8, ∃ t : Fin grid1.N, win1_1.index t = ![q0.val, 0])

/-- What point `t` writes back is its block of the quantized matrix of the array the region finds. -/
theorem flushed_eq (c : Dev nD) (t : Fin cfg1.N) :
    (dat1 V c).flushed 1 t = ((cfg1.win 1).blk t).view.read (Elt Ideal) (quant d2048 (V c main_arg3)) := by
  show (cfg1.win 1).cut (grid1.coords t) ((dat1 V c).after 1 t) = _
  rw [after1_1]
  unfold out1_1
  rw [View.canon_unit_zero hz]
  simp only [View.ld_unit_zero (S := S256x2048) hz]
  obtain ⟨e0, e1, e2⟩ := idx_facts t
  funext j
  obtain ⟨r, k, rfl⟩ : ∃ (r : Fin 256) (k : Fin 2048), j = ix2 r k := ⟨j 0, j 1, eq_ix2 j⟩
  refine (k1_pay1_apply (iblk1 V c 0 t) r k).trans ?_
  show qrow d2048 (row (iblk1 V c 0 t) r) k
    = qrow d2048 (row (V c main_arg3) ((((cfg1.win 1).blk t).view.emb (ix2 r k)) 0)) ((((cfg1.win 1).blk t).view.emb (ix2 r k)) 1)
  have hk : (((cfg1.win 1).blk t).view.emb (ix2 r k)) 1 = k := Fin.ext (by
    show win1_1.index t (1 : Fin 2) * 2048 + 1 * k.val = k.val
    omega)
  refine (qrow_congr d2048 (fun k' => ?_) k).trans (congrArg (qrow d2048 _) hk.symm)
  show V c main_arg3 (((cfg1.win 0).blk t).view.emb (ix2 r k')) = V c main_arg3 (ix2 ((((cfg1.win 1).blk t).view.emb (ix2 r k)) 0) k')
  refine congrArg (V c main_arg3) (funext fun a => Fin.ext ?_)
  match a with
  | ⟨0, _⟩ => show win1_0.index t (0 : Fin 2) * 256 + 1 * r.val = win1_1.index t (0 : Fin 2) * 256 + 1 * r.val; omega
  | ⟨1, _⟩ => show win1_0.index t (1 : Fin 2) * 2048 + 1 * k'.val = k'.val; omega

/-- An index of the array is in point `t`'s block iff each coordinate is in the block's range on its axis. -/
theorem mem_blk (t : Fin cfg1.N) (i : S2048x2048.Idx) :
    i ∈ ((cfg1.win 1).blk t).view.set ↔ ∀ a : Fin 2, win1_1.index t a * S256x2048.size a ≤ (i a).val
      ∧ (i a).val < win1_1.index t a * S256x2048.size a + S256x2048.size a := by
  show i ∈ ((View.whole main_v1).slice (win1_1.rect t)).set ↔ _
  rw [View.set_slice_whole, Rect.mem_set_unit]
  exact Iff.rfl

/-- Row i lies in the block of the point whose row block is i / 256. -/
theorem cover (i : S2048x2048.Idx) : ∃ t : Fin cfg1.N, (cfg1.win 1).flush t = true ∧ i ∈ ((cfg1.win 1).blk t).view.set := by
  have hi0 : (i 0).val < 2048 := (i 0).isLt
  have hi1 : (i 1).val < 2048 := (i 1).isLt
  obtain ⟨t, ht⟩ := idx_onto ⟨(i 0).val / 256, by omega⟩
  have q0 : win1_1.index t (0 : Fin 2) = (i 0).val / 256 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 256 ≤ (i 0).val ∧ (i 0).val < win1_1.index t (0 : Fin 2) * 256 + 256; omega
  | ⟨1, _⟩ => show win1_1.index t (1 : Fin 2) * 2048 ≤ (i 1).val ∧ (i 1).val < win1_1.index t (1 : Fin 2) * 2048 + 2048; omega

/-- The output array after the region: the quantized matrix of the weight array as the region finds it. -/
theorem final (c : Dev nD) : (dat1 V c).arrAt 1 cfg1.N = quant d2048 (V c main_arg3) :=
  (dat1 V c).arrAt_eq_of_cover 1 (quant d2048 (V c main_arg3)) (fun t _ => flushed_eq V c t) cover

end Cert.Tern.KReg1

end
-- ==== Proof.KReg2.lean ====
/-
  Quantize region 2: the array it leaves is the quantized weight matrix.

  The grid has 16 points; point t reads rows 256·t … 256·t + 255 of the [4096, 2048] weight array (whole rows) and writes the same
  rows of the output.  An entry of the quantized matrix depends only on its own row, so the block a point writes back is
  that block of the whole quantized matrix, and the 16 blocks tile the array.
-/
import proofs.«177872_j77824807404254_2_alg».proof.Proof.Gen.KernelIdeal.Frame
import proofs.«177872_j77824807404254_2_alg».proof.Proof.KQuant

set_option maxRecDepth 16384

noncomputable section

namespace Cert.Tern.KReg2

open Idealize.ShloMosaic Idealize.ShloMosaic.TcCoe Idealize.ShloMosaic.ValueIdx Idealize.SL.Sem
open Idealize.ShloMosaic.Pipeline (Dat Cfg Window)
open Cert.Tern Cert.Tern.KBody Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input and the output window move together along the rows and stay at column block 0. -/
theorem idx_facts : ∀ t : Fin cfg2.N, win2_0.index t (0 : Fin 2) = win2_1.index t (0 : Fin 2)
    ∧ win2_0.index t (1 : Fin 2) = 0 ∧ win2_1.index t (1 : Fin 2) = 0 :=
  (by decide +kernel : ∀ t : Fin grid2.N, _)

/-- Every row block is some point's. -/
theorem idx_onto : ∀ q0 : Fin 16, ∃ t : Fin cfg2.N, win2_1.index t = ![q0.val, 0] :=
  (by decide +kernel : ∀ q0 : Fin 16, ∃ t : Fin grid2.N, win2_1.index t = ![q0.val, 0])

/-- What point `t` writes back is its block of the quantized matrix of the array the region finds. -/
theorem flushed_eq (c : Dev nD) (t : Fin cfg2.N) :
    (dat2 V c).flushed 1 t = ((cfg2.win 1).blk t).view.read (Elt Ideal) (quant d2048 (V c main_arg5)) := by
  show (cfg2.win 1).cut (grid2.coords t) ((dat2 V c).after 1 t) = _
  rw [after2_1]
  unfold out2_1
  rw [View.canon_unit_zero hz]
  simp only [View.ld_unit_zero (S := S256x2048) hz]
  obtain ⟨e0, e1, e2⟩ := idx_facts t
  funext j
  obtain ⟨r, k, rfl⟩ : ∃ (r : Fin 256) (k : Fin 2048), j = ix2 r k := ⟨j 0, j 1, eq_ix2 j⟩
  refine (k2_pay1_apply (iblk2 V c 0 t) r k).trans ?_
  show qrow d2048 (row (iblk2 V c 0 t) r) k
    = qrow d2048 (row (V c main_arg5) ((((cfg2.win 1).blk t).view.emb (ix2 r k)) 0)) ((((cfg2.win 1).blk t).view.emb (ix2 r k)) 1)
  have hk : (((cfg2.win 1).blk t).view.emb (ix2 r k)) 1 = k := Fin.ext (by
    show win2_1.index t (1 : Fin 2) * 2048 + 1 * k.val = k.val
    omega)
  refine (qrow_congr d2048 (fun k' => ?_) k).trans (congrArg (qrow d2048 _) hk.symm)
  show V c main_arg5 (((cfg2.win 0).blk t).view.emb (ix2 r k')) = V c main_arg5 (ix2 ((((cfg2.win 1).blk t).view.emb (ix2 r k)) 0) k')
  refine congrArg (V c main_arg5) (funext fun a => Fin.ext ?_)
  match a with
  | ⟨0, _⟩ => show win2_0.index t (0 : Fin 2) * 256 + 1 * r.val = win2_1.index t (0 : Fin 2) * 256 + 1 * r.val; omega
  | ⟨1, _⟩ => show win2_0.index t (1 : Fin 2) * 2048 + 1 * k'.val = k'.val; omega

/-- An index of the array is in point `t`'s block iff each coordinate is in the block's range on its axis. -/
theorem mem_blk (t : Fin cfg2.N) (i : S4096x2048.Idx) :
    i ∈ ((cfg2.win 1).blk t).view.set ↔ ∀ a : Fin 2, win2_1.index t a * S256x2048.size a ≤ (i a).val
      ∧ (i a).val < win2_1.index t a * S256x2048.size a + S256x2048.size a := by
  show i ∈ ((View.whole main_v2).slice (win2_1.rect t)).set ↔ _
  rw [View.set_slice_whole, Rect.mem_set_unit]
  exact Iff.rfl

/-- Row i lies in the block of the point whose row block is i / 256. -/
theorem cover (i : S4096x2048.Idx) : ∃ t : Fin cfg2.N, (cfg2.win 1).flush t = true ∧ i ∈ ((cfg2.win 1).blk t).view.set := by
  have hi0 : (i 0).val < 4096 := (i 0).isLt
  have hi1 : (i 1).val < 2048 := (i 1).isLt
  obtain ⟨t, ht⟩ := idx_onto ⟨(i 0).val / 256, by omega⟩
  have q0 : win2_1.index t (0 : Fin 2) = (i 0).val / 256 := congrFun ht 0
  have q1 : win2_1.index t (1 : Fin 2) = 0 := congrFun ht 1
  refine ⟨t, flush2_1 t, ?_⟩
  rw [mem_blk]
  intro a
  match a with
  | ⟨0, _⟩ => show win2_1.index t (0 : Fin 2) * 256 ≤ (i 0).val ∧ (i 0).val < win2_1.index t (0 : Fin 2) * 256 + 256; omega
  | ⟨1, _⟩ => show win2_1.index t (1 : Fin 2) * 2048 ≤ (i 1).val ∧ (i 1).val < win2_1.index t (1 : Fin 2) * 2048 + 2048; omega

/-- The output array after the region: the quantized matrix of the weight array as the region finds it. -/
theorem final (c : Dev nD) : (dat2 V c).arrAt 1 cfg2.N = quant d2048 (V c main_arg5) :=
  (dat2 V c).arrAt_eq_of_cover 1 (quant d2048 (V c main_arg5)) (fun t _ => flushed_eq V c t) cover

end Cert.Tern.KReg2

end
-- ==== Proof.KReg3.lean ====
/-
  Quantize region 3: the array it leaves is the quantized weight matrix.

  The grid has 125 points; point t reads rows 256·t … 256·t + 255 of the [32000, 2048] weight array (whole rows) and writes the same
  rows of the output.  An entry of the quantized matrix depends only on its own row, so the block a point writes back is
  that block of the whole quantized matrix, and the 125 blocks tile the array.
-/
import proofs.«177872_j77824807404254_2_alg».proof.Proof.Gen.KernelIdeal.Frame
import proofs.«177872_j77824807404254_2_alg».proof.Proof.KQuant

set_option maxRecDepth 16384

noncomputable section

namespace Cert.Tern.KReg3

open Idealize.ShloMosaic Idealize.ShloMosaic.TcCoe Idealize.ShloMosaic.ValueIdx Idealize.SL.Sem
open Idealize.ShloMosaic.Pipeline (Dat Cfg Window)
open Cert.Tern Cert.Tern.KBody Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input and the output window move together along the rows and stay at column block 0. -/
theorem idx_facts : ∀ t : Fin cfg3.N, win3_0.index t (0 : Fin 2) = win3_1.index t (0 : Fin 2)
    ∧ win3_0.index t (1 : Fin 2) = 0 ∧ win3_1.index t (1 : Fin 2) = 0 :=
  (by decide +kernel : ∀ t : Fin grid3.N, _)

/-- Every row block is some point's. -/
theorem idx_onto : ∀ q0 : Fin 125, ∃ t : Fin cfg3.N, win3_1.index t = ![q0.val, 0] :=
  (by decide +kernel : ∀ q0 : Fin 125, ∃ t : Fin grid3.N, win3_1.index t = ![q0.val, 0])

/-- What point `t` writes back is its block of the quantized matrix of the array the region finds. -/
theorem flushed_eq (c : Dev nD) (t : Fin cfg3.N) :
    (dat3 V c).flushed 1 t = ((cfg3.win 1).blk t).view.read (Elt Ideal) (quant d2048 (V c main_arg7)) := by
  show (cfg3.win 1).cut (grid3.coords t) ((dat3 V c).after 1 t) = _
  rw [after3_1]
  unfold out3_1
  rw [View.canon_unit_zero hz]
  simp only [View.ld_unit_zero (S := S256x2048) hz]
  obtain ⟨e0, e1, e2⟩ := idx_facts t
  funext j
  obtain ⟨r, k, rfl⟩ : ∃ (r : Fin 256) (k : Fin 2048), j = ix2 r k := ⟨j 0, j 1, eq_ix2 j⟩
  refine (k3_pay1_apply (iblk3 V c 0 t) r k).trans ?_
  show qrow d2048 (row (iblk3 V c 0 t) r) k
    = qrow d2048 (row (V c main_arg7) ((((cfg3.win 1).blk t).view.emb (ix2 r k)) 0)) ((((cfg3.win 1).blk t).view.emb (ix2 r k)) 1)
  have hk : (((cfg3.win 1).blk t).view.emb (ix2 r k)) 1 = k := Fin.ext (by
    show win3_1.index t (1 : Fin 2) * 2048 + 1 * k.val = k.val
    omega)
  refine (qrow_congr d2048 (fun k' => ?_) k).trans (congrArg (qrow d2048 _) hk.symm)
  show V c main_arg7 (((cfg3.win 0).blk t).view.emb (ix2 r k')) = V c main_arg7 (ix2 ((((cfg3.win 1).blk t).view.emb (ix2 r k)) 0) k')
  refine congrArg (V c main_arg7) (funext fun a => Fin.ext ?_)
  match a with
  | ⟨0, _⟩ => show win3_0.index t (0 : Fin 2) * 256 + 1 * r.val = win3_1.index t (0 : Fin 2) * 256 + 1 * r.val; omega
  | ⟨1, _⟩ => show win3_0.index t (1 : Fin 2) * 2048 + 1 * k'.val = k'.val; omega

/-- An index of the array is in point `t`'s block iff each coordinate is in the block's range on its axis. -/
theorem mem_blk (t : Fin cfg3.N) (i : S32000x2048.Idx) :
    i ∈ ((cfg3.win 1).blk t).view.set ↔ ∀ a : Fin 2, win3_1.index t a * S256x2048.size a ≤ (i a).val
      ∧ (i a).val < win3_1.index t a * S256x2048.size a + S256x2048.size a := by
  show i ∈ ((View.whole main_v3).slice (win3_1.rect t)).set ↔ _
  rw [View.set_slice_whole, Rect.mem_set_unit]
  exact Iff.rfl

/-- Row i lies in the block of the point whose row block is i / 256. -/
theorem cover (i : S32000x2048.Idx) : ∃ t : Fin cfg3.N, (cfg3.win 1).flush t = true ∧ i ∈ ((cfg3.win 1).blk t).view.set := by
  have hi0 : (i 0).val < 32000 := (i 0).isLt
  have hi1 : (i 1).val < 2048 := (i 1).isLt
  obtain ⟨t, ht⟩ := idx_onto ⟨(i 0).val / 256, by omega⟩
  have q0 : win3_1.index t (0 : Fin 2) = (i 0).val / 256 := congrFun ht 0
  have q1 : win3_1.index t (1 : Fin 2) = 0 := congrFun ht 1
  refine ⟨t, flush3_1 t, ?_⟩
  rw [mem_blk]
  intro a
  match a with
  | ⟨0, _⟩ => show win3_1.index t (0 : Fin 2) * 256 ≤ (i 0).val ∧ (i 0).val < win3_1.index t (0 : Fin 2) * 256 + 256; omega
  | ⟨1, _⟩ => show win3_1.index t (1 : Fin 2) * 2048 ≤ (i 1).val ∧ (i 1).val < win3_1.index t (1 : Fin 2) * 2048 + 2048; omega

/-- The output array after the region: the quantized matrix of the weight array as the region finds it. -/
theorem final (c : Dev nD) : (dat3 V c).arrAt 1 cfg3.N = quant d2048 (V c main_arg7) :=
  (dat3 V c).arrAt_eq_of_cover 1 (quant d2048 (V c main_arg7)) (fun t _ => flushed_eq V c t) cover

end Cert.Tern.KReg3

end
-- ==== Proof.KMat.lean ====
/-
  The four matmul bodies read at an entry of their output block.

  The body multiplies a [2048, K] block of layer inputs with the transpose of a [256, K] block of quantized weights into a
  zero accumulator — over the extended reals the plain sum over k of products —, adds the [1, 256] bias block broadcast
  down the rows, and for the two hidden layers takes the maximum with 0.  A change of float format is the identity.
-/
import proofs.«177872_j77824807404254_2_alg».proof.Proof.Gen.KernelIdeal.Skeleton
import proofs.«177872_j77824807404254_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Tern.KBody

open Idealize.ShloMosaic Idealize.ShloMosaic.ValueIdx Cert.Tern
open Cert.KernelIdeal Cert.KernelIdeal.Gen
open scoped BigOperators

/-- A sum plus a bias, and the same followed by the maximum with 0. -/
def plainAdd (s b : EReal) : EReal := s + b
def reluAdd (s b : EReal) : EReal := max (s + b) cZero

abbrev D1024 := dot_S2048x1024_S256x1024_S2048x256_1_1_0_0_n_n

/-- The left operand's row coordinate is the output's row coordinate; the right operand's row coordinate is the output's column. -/
theorem D1024_lhs0 (i : S2048x256.Idx) (c : D1024.contr.Idx) : (D1024.lhsIdx i c 0).val = (i 0).val := by
  unfold DotDims.lhsIdx
  rw [dif_neg (show ¬(0 : Fin S2048x1024.rank) ∈ D1024.lhsBatch by decide),
    dif_pos (show (0 : Fin S2048x1024.rank) ∈ D1024.lhsNonContracting by decide)]
  rfl
theorem D1024_rhs0 (i : S2048x256.Idx) (c : D1024.contr.Idx) : (D1024.rhsIdx i c 0).val = (i 1).val := by
  unfold DotDims.rhsIdx
  rw [dif_neg (show ¬(0 : Fin S256x1024.rank) ∈ D1024.rhsBatch by decide),
    dif_pos (show (0 : Fin S256x1024.rank) ∈ D1024.rhsNonContracting by decide)]
  rfl

/-- A [2048, 1024] block times the transpose of a [256, 1024] block into a zero accumulator, at (p, q): the sum over k of the
    products of row p of the left block with row q of the right block. -/
theorem mm1024_apply {φ₁ φ₂ : FTy} (lhs : FVec Ideal S2048x1024 φ₁) (rhs : FVec Ideal S256x1024 φ₂) (p : Fin 2048) (q : Fin 256) :
    FloatOps.matmul D1024 none lhs rhs (constant S2048x256 .f32 0x00000000#32) (ix2 p q)
      = ∑ k : Fin 1024, lhs (ix2 p k) * rhs (ix2 q k) := by
  rw [Ideal.matmul_constant_zero_apply, ← Equiv.sum_comp (ValueIdx.contrEquiv1 D1024 1024 rfl rfl).symm]
  refine Finset.sum_congr rfl fun k _ => ?_
  have hk := ValueIdx.contrEquiv1_symm_val D1024 1024 rfl rfl k
  have el : D1024.lhsIdx (ix2 p q) ((ValueIdx.contrEquiv1 D1024 1024 rfl rfl).symm k) = ix2 p k :=
    funext fun a => Fin.ext (by
      match a with
      | ⟨0, _⟩ => exact D1024_lhs0 _ _
      | ⟨1, _⟩ => exact (D1024.lhsIdx_val_of_single rfl _ _).trans hk)
  have er : D1024.rhsIdx (ix2 p q) ((ValueIdx.contrEquiv1 D1024 1024 rfl rfl).symm k) = ix2 q k :=
    funext fun a => Fin.ext (by
      match a with
      | ⟨0, _⟩ => exact D1024_rhs0 _ _
      | ⟨1, _⟩ => exact (D1024.rhsIdx_val_of_single rfl _ _).trans hk)
  rw [el, er]

abbrev D2048 := dot_S2048x2048_S256x2048_S2048x256_1_1_0_0_n_n

/-- The left operand's row coordinate is the output's row coordinate; the right operand's row coordinate is the output's column. -/
theorem D2048_lhs0 (i : S2048x256.Idx) (c : D2048.contr.Idx) : (D2048.lhsIdx i c 0).val = (i 0).val := by
  unfold DotDims.lhsIdx
  rw [dif_neg (show ¬(0 : Fin S2048x2048.rank) ∈ D2048.lhsBatch by decide),
    dif_pos (show (0 : Fin S2048x2048.rank) ∈ D2048.lhsNonContracting by decide)]
  rfl
theorem D2048_rhs0 (i : S2048x256.Idx) (c : D2048.contr.Idx) : (D2048.rhsIdx i c 0).val = (i 1).val := by
  unfold DotDims.rhsIdx
  rw [dif_neg (show ¬(0 : Fin S256x2048.rank) ∈ D2048.rhsBatch by decide),
    dif_pos (show (0 : Fin S256x2048.rank) ∈ D2048.rhsNonContracting by decide)]
  rfl

/-- A [2048, 2048] block times the transpose of a [256, 2048] block into a zero accumulator, at (p, q): the sum over k of the
    products of row p of the left block with row q of the right block. -/
theorem mm2048_apply {φ₁ φ₂ : FTy} (lhs : FVec Ideal S2048x2048 φ₁) (rhs : FVec Ideal S256x2048 φ₂) (p : Fin 2048) (q : Fin 256) :
    FloatOps.matmul D2048 none lhs rhs (constant S2048x256 .f32 0x00000000#32) (ix2 p q)
      = ∑ k : Fin 2048, lhs (ix2 p k) * rhs (ix2 q k) := by
  rw [Ideal.matmul_constant_zero_apply, ← Equiv.sum_comp (ValueIdx.contrEquiv1 D2048 2048 rfl rfl).symm]
  refine Finset.sum_congr rfl fun k _ => ?_
  have hk := ValueIdx.contrEquiv1_symm_val D2048 2048 rfl rfl k
  have el : D2048.lhsIdx (ix2 p q) ((ValueIdx.contrEquiv1 D2048 2048 rfl rfl).symm k) = ix2 p k :=
    funext fun a => Fin.ext (by
      match a with
      | ⟨0, _⟩ => exact D2048_lhs0 _ _
      | ⟨1, _⟩ => exact (D2048.lhsIdx_val_of_single rfl _ _).trans hk)
  have er : D2048.rhsIdx (ix2 p q) ((ValueIdx.contrEquiv1 D2048 2048 rfl rfl).symm k) = ix2 q k :=
    funext fun a => Fin.ext (by
      match a with
      | ⟨0, _⟩ => exact D2048_rhs0 _ _
      | ⟨1, _⟩ => exact (D2048.rhsIdx_val_of_single rfl _ _).trans hk)
  rw [el, er]

/-- The matmul body 4 at (p, q) of its output block: row p of the input block against row q of the weight block, plus the
    bias entry q, and the maximum with 0. -/
theorem k4_pay1_apply (v0 : FVec Ideal S2048x1024 .f32) (v2 : FVec Ideal S256x1024 .bf16) (v5 : FVec Ideal S1x256 .f32)
    (p : Fin 2048) (q : Fin 256) :
    k4_pay1 (F := Ideal) v0 v2 v5 (ix2 p q) = max (dot (row v0 p) (row v2 q) (v5 (ix2 0 q))) cZero := by
  unfold k4_pay1
  simp only [truncf_apply, maximumf_apply, addf_apply, broadcast_apply, broadcastTo_1b_ab_apply, shapeCast_self]
  exact (show _ = reluAdd (FloatOps.matmul D1024 none (truncf .bf16 v0 bitsLt_bf16_f32) v2 (constant S2048x256 .f32 0x00000000#32) (ix2 p q))
      (v5 (ix2 0 q)) from rfl).trans
    (congrArg (fun s => reluAdd s (v5 (ix2 0 q))) (mm1024_apply (truncf .bf16 v0 bitsLt_bf16_f32) v2 p q))

/-- The matmul body 5 at (p, q) of its output block: row p of the input block against row q of the weight block, plus the
    bias entry q, and the maximum with 0. -/
theorem k5_pay1_apply (v0 : FVec Ideal S2048x2048 .bf16) (v2 : FVec Ideal S256x2048 .bf16) (v5 : FVec Ideal S1x256 .f32)
    (p : Fin 2048) (q : Fin 256) :
    k5_pay1 (F := Ideal) v0 v2 v5 (ix2 p q) = max (dot (row v0 p) (row v2 q) (v5 (ix2 0 q))) cZero := by
  unfold k5_pay1
  simp only [truncf_apply, maximumf_apply, addf_apply, broadcast_apply, broadcastTo_1b_ab_apply, shapeCast_self]
  exact (show _ = reluAdd (FloatOps.matmul D2048 none v0 v2 (constant S2048x256 .f32 0x00000000#32) (ix2 p q))
      (v5 (ix2 0 q)) from rfl).trans
    (congrArg (fun s => reluAdd s (v5 (ix2 0 q))) (mm2048_apply v0 v2 p q))

/-- The matmul body 6 at (p, q) of its output block: row p of the input block against row q of the weight block, plus the
    bias entry q. -/
theorem k6_pay1_apply (v0 : FVec Ideal S2048x2048 .bf16) (v2 : FVec Ideal S256x2048 .bf16) (v5 : FVec Ideal S1x256 .f32)
    (p : Fin 2048) (q : Fin 256) :
    k6_pay1 (F := Ideal) v0 v2 v5 (ix2 p q) = dot (row v0 p) (row v2 q) (v5 (ix2 0 q)) := by
  unfold k6_pay1
  simp only [truncf_apply, maximumf_apply, addf_apply, broadcast_apply, broadcastTo_1b_ab_apply, shapeCast_self]
  exact (show _ = plainAdd (FloatOps.matmul D2048 none v0 v2 (constant S2048x256 .f32 0x00000000#32) (ix2 p q))
      (v5 (ix2 0 q)) from rfl).trans
    (congrArg (fun s => plainAdd s (v5 (ix2 0 q))) (mm2048_apply v0 v2 p q))

/-- The matmul body 7 at (p, q) of its output block: row p of the input block against row q of the weight block, plus the
    bias entry q. -/
theorem k7_pay1_apply (v0 : FVec Ideal S2048x2048 .bf16) (v2 : FVec Ideal S256x2048 .bf16) (v5 : FVec Ideal S1x256 .f32)
    (p : Fin 2048) (q : Fin 256) :
    k7_pay1 (F := Ideal) v0 v2 v5 (ix2 p q) = dot (row v0 p) (row v2 q) (v5 (ix2 0 q)) := by
  unfold k7_pay1
  simp only [truncf_apply, maximumf_apply, addf_apply, broadcast_apply, broadcastTo_1b_ab_apply, shapeCast_self]
  exact (show _ = plainAdd (FloatOps.matmul D2048 none v0 v2 (constant S2048x256 .f32 0x00000000#32) (ix2 p q))
      (v5 (ix2 0 q)) from rfl).trans
    (congrArg (fun s => plainAdd s (v5 (ix2 0 q))) (mm2048_apply v0 v2 p q))

end Cert.Tern.KBody

end
-- ==== Proof.KReg4.lean ====
/-
  Matmul region 4: the array it leaves is the dense layer on the input, the quantized weights and the bias, followed by `max · 0`.

  The grid has 4 × 8 points, the second coordinate running fastest.  Point (i, j) reads rows 2048·i … 2048·i + 2047 of the
  [8192, 1024] layer input (whole rows), rows 256·j … 256·j + 255 of the [2048, 1024] quantized weights (whole rows) and
  entries 256·j … 256·j + 255 of the bias, kept as a [1, 2048] matrix, and writes block (i, j), of size [2048, 256], of the
  output.  An entry of the layer depends only on its input row, its weight row and its bias entry, all of which lie in
  the blocks the point reads; so the block a point writes back is that block of the whole layer, and the 4 × 8
  blocks tile the array.
-/
import proofs.«177872_j77824807404254_2_alg».proof.Proof.Gen.KernelIdeal.Frame
import proofs.«177872_j77824807404254_2_alg».proof.Proof.KMat
import proofs.«177872_j77824807404254_2_alg».proof.Proof.KDense

set_option maxRecDepth 16384

noncomputable section

namespace Cert.Tern.KReg4

open Idealize.ShloMosaic Idealize.ShloMosaic.TcCoe Idealize.ShloMosaic.ValueIdx Idealize.SL.Sem
open Idealize.ShloMosaic.Pipeline (Dat Cfg Window)
open Cert.Tern Cert.Tern.KBody Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input window follows the output's row block, the weight window and the bias window
    follow the output's column block, and each stays at block 0 on its other axis. -/
theorem idx_facts : ∀ t : Fin cfg4.N,
    win4_0.index t (0 : Fin 2) = win4_3.index t (0 : Fin 2) ∧ win4_0.index t (1 : Fin 2) = 0
    ∧ win4_1.index t (0 : Fin 2) = win4_3.index t (1 : Fin 2) ∧ win4_1.index t (1 : Fin 2) = 0
    ∧ win4_2.index t (0 : Fin 2) = 0 ∧ win4_2.index t (1 : Fin 2) = win4_3.index t (1 : Fin 2) :=
  (by decide +kernel : ∀ t : Fin grid4.N, _)

/-- The output window's block index at point t is (t / 8, t mod 8). -/
theorem idx_out : ∀ t : Fin cfg4.N,
    win4_3.index t (0 : Fin 2) = t.val / 8 ∧ win4_3.index t (1 : Fin 2) = t.val % 8 :=
  (by decide +kernel : ∀ t : Fin grid4.N, _)

/-- What point `t` writes back is its block of the layer computed from the arrays the region finds. -/
theorem flushed_eq (c : Dev nD) (t : Fin cfg4.N) :
    (dat4 V c).flushed 3 t
      = ((cfg4.win 3).blk t).view.read (Elt Ideal) (relu (dense2 (V c main_arg0) (V c main_v0) (V c main_v4))) := by
  show (cfg4.win 3).cut (grid4.coords t) ((dat4 V c).after 3 t) = _
  rw [after4_3]
  unfold out4_3
  rw [View.canon_unit_zero hz]
  simp only [View.ld_unit_zero (S := S2048x1024) hz, View.ld_unit_zero (S := S256x1024) hz,
    View.ld_unit_zero (S := S1x256) hz]
  obtain ⟨e0, e1, e2, e3, e4, e5⟩ := idx_facts t
  funext j
  obtain ⟨p, q, rfl⟩ : ∃ (p : Fin 2048) (q : Fin 256), j = ix2 p q := ⟨j 0, j 1, eq_ix2 j⟩
  refine (k4_pay1_apply (iblk4 V c 0 t) (iblk4 V c 1 t) (iblk4 V c 2 t) p q).trans ?_
  show max (dot (row (iblk4 V c 0 t) p) (row (iblk4 V c 1 t) q) (iblk4 V c 2 t (ix2 0 q))) cZero
    = max (dot (row (V c main_arg0) ((((cfg4.win 3).blk t).view.emb (ix2 p q)) 0))
        (row (V c main_v0) ((((cfg4.win 3).blk t).view.emb (ix2 p q)) 1))
        (V c main_v4 (ix2 (0 : Fin 1) ((((cfg4.win 3).blk t).view.emb (ix2 p q)) 1)))) cZero
  refine congrArg (fun s => max s cZero) (dot_congr (fun k => ?_) (fun k => ?_) ?_)
  · show V c main_arg0 (((cfg4.win 0).blk t).view.emb (ix2 p k))
      = V c main_arg0 (ix2 ((((cfg4.win 3).blk t).view.emb (ix2 p q)) 0) k)
    refine congrArg (V c main_arg0) (funext fun a => Fin.ext ?_)
    match a with
    | ⟨0, _⟩ =>
      show win4_0.index t (0 : Fin 2) * 2048 + 1 * p.val = win4_3.index t (0 : Fin 2) * 2048 + 1 * p.val; omega
    | ⟨1, _⟩ => show win4_0.index t (1 : Fin 2) * 1024 + 1 * k.val = k.val; omega
  · show V c main_v0 (((cfg4.win 1).blk t).view.emb (ix2 q k))
      = V c main_v0 (ix2 ((((cfg4.win 3).blk t).view.emb (ix2 p q)) 1) k)
    refine congrArg (V c main_v0) (funext fun a => Fin.ext ?_)
    match a with
    | ⟨0, _⟩ =>
      show win4_1.index t (0 : Fin 2) * 256 + 1 * q.val = win4_3.index t (1 : Fin 2) * 256 + 1 * q.val; omega
    | ⟨1, _⟩ => show win4_1.index t (1 : Fin 2) * 1024 + 1 * k.val = k.val; omega
  · show V c main_v4 (((cfg4.win 2).blk t).view.emb (ix2 0 q))
      = V c main_v4 (ix2 (0 : Fin 1) ((((cfg4.win 3).blk t).view.emb (ix2 p q)) 1))
    refine congrArg (V c main_v4) (funext fun a => Fin.ext ?_)
    match a with
    | ⟨0, _⟩ => show win4_2.index t (0 : Fin 2) * 1 + 1 * 0 = 0; omega
    | ⟨1, _⟩ =>
      show win4_2.index t (1 : Fin 2) * 256 + 1 * q.val = win4_3.index t (1 : Fin 2) * 256 + 1 * q.val; omega

/-- An index of the array is in point `t`'s block iff each coordinate is in the block's range on its axis. -/
theorem mem_blk (t : Fin cfg4.N) (i : S8192x2048.Idx) :
    i ∈ ((cfg4.win 3).blk t).view.set ↔ ∀ a : Fin 2, win4_3.index t a * S2048x256.size a ≤ (i a).val
      ∧ (i a).val < win4_3.index t a * S2048x256.size a + S2048x256.size a := by
  show i ∈ ((View.whole main_v5).slice (win4_3.rect t)).set ↔ _
  rw [View.set_slice_whole, Rect.mem_set_unit]
  exact Iff.rfl

/-- Entry (r, s) lies in the block of the point (r / 2048) · 8 + s / 256. -/
theorem cover (i : S8192x2048.Idx) :
    ∃ t : Fin cfg4.N, (cfg4.win 3).flush t = true ∧ i ∈ ((cfg4.win 3).blk t).view.set := by
  have hi0 : (i 0).val < 8192 := (i 0).isLt
  have hi1 : (i 1).val < 2048 := (i 1).isLt
  have hN : grid4.N = 32 := N_4
  have ht : (i 0).val / 2048 * 8 + (i 1).val / 256 < cfg4.N := by
    show _ < grid4.N
    rw [hN]; omega
  have q0 : win4_3.index ⟨(i 0).val / 2048 * 8 + (i 1).val / 256, ht⟩ (0 : Fin 2)
      = ((i 0).val / 2048 * 8 + (i 1).val / 256) / 8 := (idx_out ⟨_, ht⟩).1
  have q1 : win4_3.index ⟨(i 0).val / 2048 * 8 + (i 1).val / 256, ht⟩ (1 : Fin 2)
      = ((i 0).val / 2048 * 8 + (i 1).val / 256) % 8 := (idx_out ⟨_, ht⟩).2
  refine ⟨⟨(i 0).val / 2048 * 8 + (i 1).val / 256, ht⟩, flush4_3 _, ?_⟩
  rw [mem_blk]
  intro a
  match a with
  | ⟨0, _⟩ =>
    show win4_3.index ⟨(i 0).val / 2048 * 8 + (i 1).val / 256, ht⟩ (0 : Fin 2) * 2048 ≤ (i 0).val
      ∧ (i 0).val < win4_3.index ⟨(i 0).val / 2048 * 8 + (i 1).val / 256, ht⟩ (0 : Fin 2) * 2048 + 2048
    omega
  | ⟨1, _⟩ =>
    show win4_3.index ⟨(i 0).val / 2048 * 8 + (i 1).val / 256, ht⟩ (1 : Fin 2) * 256 ≤ (i 1).val
      ∧ (i 1).val < win4_3.index ⟨(i 0).val / 2048 * 8 + (i 1).val / 256, ht⟩ (1 : Fin 2) * 256 + 256
    omega

/-- The output array after the region: the dense layer on the input, the quantized weights and the bias, followed by `max · 0`, computed from the arrays as the region finds them. -/
theorem final (c : Dev nD) : (dat4 V c).arrAt 3 cfg4.N = relu (dense2 (V c main_arg0) (V c main_v0) (V c main_v4)) :=
  (dat4 V c).arrAt_eq_of_cover 3 (relu (dense2 (V c main_arg0) (V c main_v0) (V c main_v4)))
    (fun t _ => flushed_eq V c t) cover

end Cert.Tern.KReg4

end
-- ==== Proof.KReg5.lean ====
/-
  Matmul region 5: the array it leaves is the dense layer on the input, the quantized weights and the bias, followed by `max · 0`.

  The grid has 4 × 8 points, the second coordinate running fastest.  Point (i, j) reads rows 2048·i … 2048·i + 2047 of the
  [8192, 2048] layer input (whole rows), rows 256·j … 256·j + 255 of the [2048, 2048] quantized weights (whole rows) and
  entries 256·j … 256·j + 255 of the bias, kept as a [1, 2048] matrix, and writes block (i, j), of size [2048, 256], of the
  output.  An entry of the layer depends only on its input row, its weight row and its bias entry, all of which lie in
  the blocks the point reads; so the block a point writes back is that block of the whole layer, and the 4 × 8
  blocks tile the array.
-/
import proofs.«177872_j77824807404254_2_alg».proof.Proof.Gen.KernelIdeal.Frame
import proofs.«177872_j77824807404254_2_alg».proof.Proof.KMat
import proofs.«177872_j77824807404254_2_alg».proof.Proof.KDense

set_option maxRecDepth 16384

noncomputable section

namespace Cert.Tern.KReg5

open Idealize.ShloMosaic Idealize.ShloMosaic.TcCoe Idealize.ShloMosaic.ValueIdx Idealize.SL.Sem
open Idealize.ShloMosaic.Pipeline (Dat Cfg Window)
open Cert.Tern Cert.Tern.KBody Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input window follows the output's row block, the weight window and the bias window
    follow the output's column block, and each stays at block 0 on its other axis. -/
theorem idx_facts : ∀ t : Fin cfg5.N,
    win5_0.index t (0 : Fin 2) = win5_3.index t (0 : Fin 2) ∧ win5_0.index t (1 : Fin 2) = 0
    ∧ win5_1.index t (0 : Fin 2) = win5_3.index t (1 : Fin 2) ∧ win5_1.index t (1 : Fin 2) = 0
    ∧ win5_2.index t (0 : Fin 2) = 0 ∧ win5_2.index t (1 : Fin 2) = win5_3.index t (1 : Fin 2) :=
  (by decide +kernel : ∀ t : Fin grid5.N, _)

/-- The output window's block index at point t is (t / 8, t mod 8). -/
theorem idx_out : ∀ t : Fin cfg5.N,
    win5_3.index t (0 : Fin 2) = t.val / 8 ∧ win5_3.index t (1 : Fin 2) = t.val % 8 :=
  (by decide +kernel : ∀ t : Fin grid5.N, _)

/-- What point `t` writes back is its block of the layer computed from the arrays the region finds. -/
theorem flushed_eq (c : Dev nD) (t : Fin cfg5.N) :
    (dat5 V c).flushed 3 t
      = ((cfg5.win 3).blk t).view.read (Elt Ideal) (relu (dense2 (V c main_v5) (V c main_v1) (V c main_v6))) := by
  show (cfg5.win 3).cut (grid5.coords t) ((dat5 V c).after 3 t) = _
  rw [after5_3]
  unfold out5_3
  rw [View.canon_unit_zero hz]
  simp only [View.ld_unit_zero (S := S2048x2048) hz, View.ld_unit_zero (S := S256x2048) hz,
    View.ld_unit_zero (S := S1x256) hz]
  obtain ⟨e0, e1, e2, e3, e4, e5⟩ := idx_facts t
  funext j
  obtain ⟨p, q, rfl⟩ : ∃ (p : Fin 2048) (q : Fin 256), j = ix2 p q := ⟨j 0, j 1, eq_ix2 j⟩
  refine (k5_pay1_apply (iblk5 V c 0 t) (iblk5 V c 1 t) (iblk5 V c 2 t) p q).trans ?_
  show max (dot (row (iblk5 V c 0 t) p) (row (iblk5 V c 1 t) q) (iblk5 V c 2 t (ix2 0 q))) cZero
    = max (dot (row (V c main_v5) ((((cfg5.win 3).blk t).view.emb (ix2 p q)) 0))
        (row (V c main_v1) ((((cfg5.win 3).blk t).view.emb (ix2 p q)) 1))
        (V c main_v6 (ix2 (0 : Fin 1) ((((cfg5.win 3).blk t).view.emb (ix2 p q)) 1)))) cZero
  refine congrArg (fun s => max s cZero) (dot_congr (fun k => ?_) (fun k => ?_) ?_)
  · show V c main_v5 (((cfg5.win 0).blk t).view.emb (ix2 p k))
      = V c main_v5 (ix2 ((((cfg5.win 3).blk t).view.emb (ix2 p q)) 0) k)
    refine congrArg (V c main_v5) (funext fun a => Fin.ext ?_)
    match a with
    | ⟨0, _⟩ =>
      show win5_0.index t (0 : Fin 2) * 2048 + 1 * p.val = win5_3.index t (0 : Fin 2) * 2048 + 1 * p.val; omega
    | ⟨1, _⟩ => show win5_0.index t (1 : Fin 2) * 2048 + 1 * k.val = k.val; omega
  · show V c main_v1 (((cfg5.win 1).blk t).view.emb (ix2 q k))
      = V c main_v1 (ix2 ((((cfg5.win 3).blk t).view.emb (ix2 p q)) 1) k)
    refine congrArg (V c main_v1) (funext fun a => Fin.ext ?_)
    match a with
    | ⟨0, _⟩ =>
      show win5_1.index t (0 : Fin 2) * 256 + 1 * q.val = win5_3.index t (1 : Fin 2) * 256 + 1 * q.val; omega
    | ⟨1, _⟩ => show win5_1.index t (1 : Fin 2) * 2048 + 1 * k.val = k.val; omega
  · show V c main_v6 (((cfg5.win 2).blk t).view.emb (ix2 0 q))
      = V c main_v6 (ix2 (0 : Fin 1) ((((cfg5.win 3).blk t).view.emb (ix2 p q)) 1))
    refine congrArg (V c main_v6) (funext fun a => Fin.ext ?_)
    match a with
    | ⟨0, _⟩ => show win5_2.index t (0 : Fin 2) * 1 + 1 * 0 = 0; omega
    | ⟨1, _⟩ =>
      show win5_2.index t (1 : Fin 2) * 256 + 1 * q.val = win5_3.index t (1 : Fin 2) * 256 + 1 * q.val; omega

/-- An index of the array is in point `t`'s block iff each coordinate is in the block's range on its axis. -/
theorem mem_blk (t : Fin cfg5.N) (i : S8192x2048.Idx) :
    i ∈ ((cfg5.win 3).blk t).view.set ↔ ∀ a : Fin 2, win5_3.index t a * S2048x256.size a ≤ (i a).val
      ∧ (i a).val < win5_3.index t a * S2048x256.size a + S2048x256.size a := by
  show i ∈ ((View.whole main_v7).slice (win5_3.rect t)).set ↔ _
  rw [View.set_slice_whole, Rect.mem_set_unit]
  exact Iff.rfl

/-- Entry (r, s) lies in the block of the point (r / 2048) · 8 + s / 256. -/
theorem cover (i : S8192x2048.Idx) :
    ∃ t : Fin cfg5.N, (cfg5.win 3).flush t = true ∧ i ∈ ((cfg5.win 3).blk t).view.set := by
  have hi0 : (i 0).val < 8192 := (i 0).isLt
  have hi1 : (i 1).val < 2048 := (i 1).isLt
  have hN : grid5.N = 32 := N_5
  have ht : (i 0).val / 2048 * 8 + (i 1).val / 256 < cfg5.N := by
    show _ < grid5.N
    rw [hN]; omega
  have q0 : win5_3.index ⟨(i 0).val / 2048 * 8 + (i 1).val / 256, ht⟩ (0 : Fin 2)
      = ((i 0).val / 2048 * 8 + (i 1).val / 256) / 8 := (idx_out ⟨_, ht⟩).1
  have q1 : win5_3.index ⟨(i 0).val / 2048 * 8 + (i 1).val / 256, ht⟩ (1 : Fin 2)
      = ((i 0).val / 2048 * 8 + (i 1).val / 256) % 8 := (idx_out ⟨_, ht⟩).2
  refine ⟨⟨(i 0).val / 2048 * 8 + (i 1).val / 256, ht⟩, flush5_3 _, ?_⟩
  rw [mem_blk]
  intro a
  match a with
  | ⟨0, _⟩ =>
    show win5_3.index ⟨(i 0).val / 2048 * 8 + (i 1).val / 256, ht⟩ (0 : Fin 2) * 2048 ≤ (i 0).val
      ∧ (i 0).val < win5_3.index ⟨(i 0).val / 2048 * 8 + (i 1).val / 256, ht⟩ (0 : Fin 2) * 2048 + 2048
    omega
  | ⟨1, _⟩ =>
    show win5_3.index ⟨(i 0).val / 2048 * 8 + (i 1).val / 256, ht⟩ (1 : Fin 2) * 256 ≤ (i 1).val
      ∧ (i 1).val < win5_3.index ⟨(i 0).val / 2048 * 8 + (i 1).val / 256, ht⟩ (1 : Fin 2) * 256 + 256
    omega

/-- The output array after the region: the dense layer on the input, the quantized weights and the bias, followed by `max · 0`, computed from the arrays as the region finds them. -/
theorem final (c : Dev nD) : (dat5 V c).arrAt 3 cfg5.N = relu (dense2 (V c main_v5) (V c main_v1) (V c main_v6)) :=
  (dat5 V c).arrAt_eq_of_cover 3 (relu (dense2 (V c main_v5) (V c main_v1) (V c main_v6)))
    (fun t _ => flushed_eq V c t) cover

end Cert.Tern.KReg5

end
-- ==== Proof.KReg6.lean ====
/-
  Matmul region 6: the array it leaves is the dense layer on the input, the quantized weights and the bias.

  The grid has 4 × 16 points, the second coordinate running fastest.  Point (i, j) reads rows 2048·i … 2048·i + 2047 of the
  [8192, 2048] layer input (whole rows), rows 256·j … 256·j + 255 of the [4096, 2048] quantized weights (whole rows) and
  entries 256·j … 256·j + 255 of the bias, kept as a [1, 4096] matrix, and writes block (i, j), of size [2048, 256], of the
  output.  An entry of the layer depends only on its input row, its weight row and its bias entry, all of which lie in
  the blocks the point reads; so the block a point writes back is that block of the whole layer, and the 4 × 16
  blocks tile the array.
-/
import proofs.«177872_j77824807404254_2_alg».proof.Proof.Gen.KernelIdeal.Frame
import proofs.«177872_j77824807404254_2_alg».proof.Proof.KMat
import proofs.«177872_j77824807404254_2_alg».proof.Proof.KDense

set_option maxRecDepth 16384

noncomputable section

namespace Cert.Tern.KReg6

open Idealize.ShloMosaic Idealize.ShloMosaic.TcCoe Idealize.ShloMosaic.ValueIdx Idealize.SL.Sem
open Idealize.ShloMosaic.Pipeline (Dat Cfg Window)
open Cert.Tern Cert.Tern.KBody Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input window follows the output's row block, the weight window and the bias window
    follow the output's column block, and each stays at block 0 on its other axis. -/
theorem idx_facts : ∀ t : Fin cfg6.N,
    win6_0.index t (0 : Fin 2) = win6_3.index t (0 : Fin 2) ∧ win6_0.index t (1 : Fin 2) = 0
    ∧ win6_1.index t (0 : Fin 2) = win6_3.index t (1 : Fin 2) ∧ win6_1.index t (1 : Fin 2) = 0
    ∧ win6_2.index t (0 : Fin 2) = 0 ∧ win6_2.index t (1 : Fin 2) = win6_3.index t (1 : Fin 2) :=
  (by decide +kernel : ∀ t : Fin grid6.N, _)

/-- The output window's block index at point t is (t / 16, t mod 16). -/
theorem idx_out : ∀ t : Fin cfg6.N,
    win6_3.index t (0 : Fin 2) = t.val / 16 ∧ win6_3.index t (1 : Fin 2) = t.val % 16 :=
  (by decide +kernel : ∀ t : Fin grid6.N, _)

/-- What point `t` writes back is its block of the layer computed from the arrays the region finds. -/
theorem flushed_eq (c : Dev nD) (t : Fin cfg6.N) :
    (dat6 V c).flushed 3 t
      = ((cfg6.win 3).blk t).view.read (Elt Ideal) (dense2 (V c main_v7) (V c main_v2) (V c main_v8)) := by
  show (cfg6.win 3).cut (grid6.coords t) ((dat6 V c).after 3 t) = _
  rw [after6_3]
  unfold out6_3
  rw [View.canon_unit_zero hz]
  simp only [View.ld_unit_zero (S := S2048x2048) hz, View.ld_unit_zero (S := S256x2048) hz,
    View.ld_unit_zero (S := S1x256) hz]
  obtain ⟨e0, e1, e2, e3, e4, e5⟩ := idx_facts t
  funext j
  obtain ⟨p, q, rfl⟩ : ∃ (p : Fin 2048) (q : Fin 256), j = ix2 p q := ⟨j 0, j 1, eq_ix2 j⟩
  refine (k6_pay1_apply (iblk6 V c 0 t) (iblk6 V c 1 t) (iblk6 V c 2 t) p q).trans ?_
  show dot (row (iblk6 V c 0 t) p) (row (iblk6 V c 1 t) q) (iblk6 V c 2 t (ix2 0 q))
    = dot (row (V c main_v7) ((((cfg6.win 3).blk t).view.emb (ix2 p q)) 0))
        (row (V c main_v2) ((((cfg6.win 3).blk t).view.emb (ix2 p q)) 1))
        (V c main_v8 (ix2 (0 : Fin 1) ((((cfg6.win 3).blk t).view.emb (ix2 p q)) 1)))
  refine dot_congr (fun k => ?_) (fun k => ?_) ?_
  · show V c main_v7 (((cfg6.win 0).blk t).view.emb (ix2 p k))
      = V c main_v7 (ix2 ((((cfg6.win 3).blk t).view.emb (ix2 p q)) 0) k)
    refine congrArg (V c main_v7) (funext fun a => Fin.ext ?_)
    match a with
    | ⟨0, _⟩ =>
      show win6_0.index t (0 : Fin 2) * 2048 + 1 * p.val = win6_3.index t (0 : Fin 2) * 2048 + 1 * p.val; omega
    | ⟨1, _⟩ => show win6_0.index t (1 : Fin 2) * 2048 + 1 * k.val = k.val; omega
  · show V c main_v2 (((cfg6.win 1).blk t).view.emb (ix2 q k))
      = V c main_v2 (ix2 ((((cfg6.win 3).blk t).view.emb (ix2 p q)) 1) k)
    refine congrArg (V c main_v2) (funext fun a => Fin.ext ?_)
    match a with
    | ⟨0, _⟩ =>
      show win6_1.index t (0 : Fin 2) * 256 + 1 * q.val = win6_3.index t (1 : Fin 2) * 256 + 1 * q.val; omega
    | ⟨1, _⟩ => show win6_1.index t (1 : Fin 2) * 2048 + 1 * k.val = k.val; omega
  · show V c main_v8 (((cfg6.win 2).blk t).view.emb (ix2 0 q))
      = V c main_v8 (ix2 (0 : Fin 1) ((((cfg6.win 3).blk t).view.emb (ix2 p q)) 1))
    refine congrArg (V c main_v8) (funext fun a => Fin.ext ?_)
    match a with
    | ⟨0, _⟩ => show win6_2.index t (0 : Fin 2) * 1 + 1 * 0 = 0; omega
    | ⟨1, _⟩ =>
      show win6_2.index t (1 : Fin 2) * 256 + 1 * q.val = win6_3.index t (1 : Fin 2) * 256 + 1 * q.val; omega

/-- An index of the array is in point `t`'s block iff each coordinate is in the block's range on its axis. -/
theorem mem_blk (t : Fin cfg6.N) (i : S8192x4096.Idx) :
    i ∈ ((cfg6.win 3).blk t).view.set ↔ ∀ a : Fin 2, win6_3.index t a * S2048x256.size a ≤ (i a).val
      ∧ (i a).val < win6_3.index t a * S2048x256.size a + S2048x256.size a := by
  show i ∈ ((View.whole main_v9).slice (win6_3.rect t)).set ↔ _
  rw [View.set_slice_whole, Rect.mem_set_unit]
  exact Iff.rfl

/-- Entry (r, s) lies in the block of the point (r / 2048) · 16 + s / 256. -/
theorem cover (i : S8192x4096.Idx) :
    ∃ t : Fin cfg6.N, (cfg6.win 3).flush t = true ∧ i ∈ ((cfg6.win 3).blk t).view.set := by
  have hi0 : (i 0).val < 8192 := (i 0).isLt
  have hi1 : (i 1).val < 4096 := (i 1).isLt
  have hN : grid6.N = 64 := N_6
  have ht : (i 0).val / 2048 * 16 + (i 1).val / 256 < cfg6.N := by
    show _ < grid6.N
    rw [hN]; omega
  have q0 : win6_3.index ⟨(i 0).val / 2048 * 16 + (i 1).val / 256, ht⟩ (0 : Fin 2)
      = ((i 0).val / 2048 * 16 + (i 1).val / 256) / 16 := (idx_out ⟨_, ht⟩).1
  have q1 : win6_3.index ⟨(i 0).val / 2048 * 16 + (i 1).val / 256, ht⟩ (1 : Fin 2)
      = ((i 0).val / 2048 * 16 + (i 1).val / 256) % 16 := (idx_out ⟨_, ht⟩).2
  refine ⟨⟨(i 0).val / 2048 * 16 + (i 1).val / 256, ht⟩, flush6_3 _, ?_⟩
  rw [mem_blk]
  intro a
  match a with
  | ⟨0, _⟩ =>
    show win6_3.index ⟨(i 0).val / 2048 * 16 + (i 1).val / 256, ht⟩ (0 : Fin 2) * 2048 ≤ (i 0).val
      ∧ (i 0).val < win6_3.index ⟨(i 0).val / 2048 * 16 + (i 1).val / 256, ht⟩ (0 : Fin 2) * 2048 + 2048
    omega
  | ⟨1, _⟩ =>
    show win6_3.index ⟨(i 0).val / 2048 * 16 + (i 1).val / 256, ht⟩ (1 : Fin 2) * 256 ≤ (i 1).val
      ∧ (i 1).val < win6_3.index ⟨(i 0).val / 2048 * 16 + (i 1).val / 256, ht⟩ (1 : Fin 2) * 256 + 256
    omega

/-- The output array after the region: the dense layer on the input, the quantized weights and the bias, computed from the arrays as the region finds them. -/
theorem final (c : Dev nD) : (dat6 V c).arrAt 3 cfg6.N = dense2 (V c main_v7) (V c main_v2) (V c main_v8) :=
  (dat6 V c).arrAt_eq_of_cover 3 (dense2 (V c main_v7) (V c main_v2) (V c main_v8))
    (fun t _ => flushed_eq V c t) cover

end Cert.Tern.KReg6

end
-- ==== Proof.KReg7.lean ====
/-
  Matmul region 7: the array it leaves is the dense layer on the input, the quantized weights and the bias.

  The grid has 4 × 125 points, the second coordinate running fastest.  Point (i, j) reads rows 2048·i … 2048·i + 2047 of the
  [8192, 2048] layer input (whole rows), rows 256·j … 256·j + 255 of the [32000, 2048] quantized weights (whole rows) and
  entries 256·j … 256·j + 255 of the bias, kept as a [1, 32000] matrix, and writes block (i, j), of size [2048, 256], of the
  output.  An entry of the layer depends only on its input row, its weight row and its bias entry, all of which lie in
  the blocks the point reads; so the block a point writes back is that block of the whole layer, and the 4 × 125
  blocks tile the array.
-/
import proofs.«177872_j77824807404254_2_alg».proof.Proof.Gen.KernelIdeal.Frame
import proofs.«177872_j77824807404254_2_alg».proof.Proof.KMat
import proofs.«177872_j77824807404254_2_alg».proof.Proof.KDense

set_option maxRecDepth 16384

noncomputable section

namespace Cert.Tern.KReg7

open Idealize.ShloMosaic Idealize.ShloMosaic.TcCoe Idealize.ShloMosaic.ValueIdx Idealize.SL.Sem
open Idealize.ShloMosaic.Pipeline (Dat Cfg Window)
open Cert.Tern Cert.Tern.KBody Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input window follows the output's row block, the weight window and the bias window
    follow the output's column block, and each stays at block 0 on its other axis. -/
theorem idx_facts : ∀ t : Fin cfg7.N,
    win7_0.index t (0 : Fin 2) = win7_3.index t (0 : Fin 2) ∧ win7_0.index t (1 : Fin 2) = 0
    ∧ win7_1.index t (0 : Fin 2) = win7_3.index t (1 : Fin 2) ∧ win7_1.index t (1 : Fin 2) = 0
    ∧ win7_2.index t (0 : Fin 2) = 0 ∧ win7_2.index t (1 : Fin 2) = win7_3.index t (1 : Fin 2) :=
  (by decide +kernel : ∀ t : Fin grid7.N, _)

/-- The output window's block index at point t is (t / 125, t mod 125). -/
theorem idx_out : ∀ t : Fin cfg7.N,
    win7_3.index t (0 : Fin 2) = t.val / 125 ∧ win7_3.index t (1 : Fin 2) = t.val % 125 :=
  (by decide +kernel : ∀ t : Fin grid7.N, _)

/-- What point `t` writes back is its block of the layer computed from the arrays the region finds. -/
theorem flushed_eq (c : Dev nD) (t : Fin cfg7.N) :
    (dat7 V c).flushed 3 t
      = ((cfg7.win 3).blk t).view.read (Elt Ideal) (dense2 (V c main_v7) (V c main_v3) (V c main_v10)) := by
  show (cfg7.win 3).cut (grid7.coords t) ((dat7 V c).after 3 t) = _
  rw [after7_3]
  unfold out7_3
  rw [View.canon_unit_zero hz]
  simp only [View.ld_unit_zero (S := S2048x2048) hz, View.ld_unit_zero (S := S256x2048) hz,
    View.ld_unit_zero (S := S1x256) hz]
  obtain ⟨e0, e1, e2, e3, e4, e5⟩ := idx_facts t
  funext j
  obtain ⟨p, q, rfl⟩ : ∃ (p : Fin 2048) (q : Fin 256), j = ix2 p q := ⟨j 0, j 1, eq_ix2 j⟩
  refine (k7_pay1_apply (iblk7 V c 0 t) (iblk7 V c 1 t) (iblk7 V c 2 t) p q).trans ?_
  show dot (row (iblk7 V c 0 t) p) (row (iblk7 V c 1 t) q) (iblk7 V c 2 t (ix2 0 q))
    = dot (row (V c main_v7) ((((cfg7.win 3).blk t).view.emb (ix2 p q)) 0))
        (row (V c main_v3) ((((cfg7.win 3).blk t).view.emb (ix2 p q)) 1))
        (V c main_v10 (ix2 (0 : Fin 1) ((((cfg7.win 3).blk t).view.emb (ix2 p q)) 1)))
  refine dot_congr (fun k => ?_) (fun k => ?_) ?_
  · show V c main_v7 (((cfg7.win 0).blk t).view.emb (ix2 p k))
      = V c main_v7 (ix2 ((((cfg7.win 3).blk t).view.emb (ix2 p q)) 0) k)
    refine congrArg (V c main_v7) (funext fun a => Fin.ext ?_)
    match a with
    | ⟨0, _⟩ =>
      show win7_0.index t (0 : Fin 2) * 2048 + 1 * p.val = win7_3.index t (0 : Fin 2) * 2048 + 1 * p.val; omega
    | ⟨1, _⟩ => show win7_0.index t (1 : Fin 2) * 2048 + 1 * k.val = k.val; omega
  · show V c main_v3 (((cfg7.win 1).blk t).view.emb (ix2 q k))
      = V c main_v3 (ix2 ((((cfg7.win 3).blk t).view.emb (ix2 p q)) 1) k)
    refine congrArg (V c main_v3) (funext fun a => Fin.ext ?_)
    match a with
    | ⟨0, _⟩ =>
      show win7_1.index t (0 : Fin 2) * 256 + 1 * q.val = win7_3.index t (1 : Fin 2) * 256 + 1 * q.val; omega
    | ⟨1, _⟩ => show win7_1.index t (1 : Fin 2) * 2048 + 1 * k.val = k.val; omega
  · show V c main_v10 (((cfg7.win 2).blk t).view.emb (ix2 0 q))
      = V c main_v10 (ix2 (0 : Fin 1) ((((cfg7.win 3).blk t).view.emb (ix2 p q)) 1))
    refine congrArg (V c main_v10) (funext fun a => Fin.ext ?_)
    match a with
    | ⟨0, _⟩ => show win7_2.index t (0 : Fin 2) * 1 + 1 * 0 = 0; omega
    | ⟨1, _⟩ =>
      show win7_2.index t (1 : Fin 2) * 256 + 1 * q.val = win7_3.index t (1 : Fin 2) * 256 + 1 * q.val; omega

/-- An index of the array is in point `t`'s block iff each coordinate is in the block's range on its axis. -/
theorem mem_blk (t : Fin cfg7.N) (i : S8192x32000.Idx) :
    i ∈ ((cfg7.win 3).blk t).view.set ↔ ∀ a : Fin 2, win7_3.index t a * S2048x256.size a ≤ (i a).val
      ∧ (i a).val < win7_3.index t a * S2048x256.size a + S2048x256.size a := by
  show i ∈ ((View.whole main_v11).slice (win7_3.rect t)).set ↔ _
  rw [View.set_slice_whole, Rect.mem_set_unit]
  exact Iff.rfl

/-- Entry (r, s) lies in the block of the point (r / 2048) · 125 + s / 256. -/
theorem cover (i : S8192x32000.Idx) :
    ∃ t : Fin cfg7.N, (cfg7.win 3).flush t = true ∧ i ∈ ((cfg7.win 3).blk t).view.set := by
  have hi0 : (i 0).val < 8192 := (i 0).isLt
  have hi1 : (i 1).val < 32000 := (i 1).isLt
  have hN : grid7.N = 500 := N_7
  have ht : (i 0).val / 2048 * 125 + (i 1).val / 256 < cfg7.N := by
    show _ < grid7.N
    rw [hN]; omega
  have q0 : win7_3.index ⟨(i 0).val / 2048 * 125 + (i 1).val / 256, ht⟩ (0 : Fin 2)
      = ((i 0).val / 2048 * 125 + (i 1).val / 256) / 125 := (idx_out ⟨_, ht⟩).1
  have q1 : win7_3.index ⟨(i 0).val / 2048 * 125 + (i 1).val / 256, ht⟩ (1 : Fin 2)
      = ((i 0).val / 2048 * 125 + (i 1).val / 256) % 125 := (idx_out ⟨_, ht⟩).2
  refine ⟨⟨(i 0).val / 2048 * 125 + (i 1).val / 256, ht⟩, flush7_3 _, ?_⟩
  rw [mem_blk]
  intro a
  match a with
  | ⟨0, _⟩ =>
    show win7_3.index ⟨(i 0).val / 2048 * 125 + (i 1).val / 256, ht⟩ (0 : Fin 2) * 2048 ≤ (i 0).val
      ∧ (i 0).val < win7_3.index ⟨(i 0).val / 2048 * 125 + (i 1).val / 256, ht⟩ (0 : Fin 2) * 2048 + 2048
    omega
  | ⟨1, _⟩ =>
    show win7_3.index ⟨(i 0).val / 2048 * 125 + (i 1).val / 256, ht⟩ (1 : Fin 2) * 256 ≤ (i 1).val
      ∧ (i 1).val < win7_3.index ⟨(i 0).val / 2048 * 125 + (i 1).val / 256, ht⟩ (1 : Fin 2) * 256 + 256
    omega

/-- The output array after the region: the dense layer on the input, the quantized weights and the bias, computed from the arrays as the region finds them. -/
theorem final (c : Dev nD) : (dat7 V c).arrAt 3 cfg7.N = dense2 (V c main_v7) (V c main_v3) (V c main_v10) :=
  (dat7 V c).arrAt_eq_of_cover 3 (dense2 (V c main_v7) (V c main_v3) (V c main_v10))
    (fun t _ => flushed_eq V c t) cover

end Cert.Tern.KReg7

end
-- ==== Proof.KFold.lean ====
/-
  What the run's last boundary holds at the two result buffers.

  Walking the fold of boundary contents back from the end: a buffer that a segment does not write keeps what it held; a
  quantize region leaves the quantized matrix of the weight array it read; a reshape leaves the bias vector as a one-row
  matrix; a matmul region leaves the dense layer of the three arrays it read.  Composed, the tier-1 result is the
  specification's `tier1` of the launch contents of the arguments, and the tier-2 result its `tier2`.
-/
import proofs.«177872_j77824807404254_2_alg».proof.Proof.Gen.KernelIdeal.Frame
import proofs.«177872_j77824807404254_2_alg».proof.Proof.KDense
import proofs.«177872_j77824807404254_2_alg».proof.Proof.KReg0
import proofs.«177872_j77824807404254_2_alg».proof.Proof.KReg1
import proofs.«177872_j77824807404254_2_alg».proof.Proof.KReg2
import proofs.«177872_j77824807404254_2_alg».proof.Proof.KReg3
import proofs.«177872_j77824807404254_2_alg».proof.Proof.KReg4
import proofs.«177872_j77824807404254_2_alg».proof.Proof.KReg5
import proofs.«177872_j77824807404254_2_alg».proof.Proof.KReg6
import proofs.«177872_j77824807404254_2_alg».proof.Proof.KReg7
import Idealize.ShloMosaic.Lib.StableHlo.Run

set_option maxRecDepth 16384

noncomputable section

namespace Cert.Tern.KFold

open Idealize.ShloMosaic Idealize.ShloMosaic.TcCoe Idealize.ShloMosaic.ValueIdx Idealize.SL.Sem Idealize.ShloMosaic.StableHlo
open Idealize.ShloMosaic.Pipeline (Dat Cfg Window)
open Cert.Tern Cert.KernelIdeal Cert.KernelIdeal.Gen

variable (m : (ℓ : Loc nD τ sig) → Buf (Elt Ideal) ℓ) (ρ : Dev nD → PrngReg) (c : Dev nD)

/-! ## The quantized weight matrices, where each quantize region leaves them -/

theorem q1 : W1 m ρ c (Proc.devRef .tc main_v0) = quant d1024 (m ((c.tc : Thread nD τ).loc main_arg1)) :=
  (W1_arr m ρ c 1).trans (KReg0.final (V0 m ρ) c)

theorem q2 : W2 m ρ c (Proc.devRef .tc main_v1) = quant d2048 (m ((c.tc : Thread nD τ).loc main_arg3)) :=
  ((W2_arr m ρ c 1).trans (KReg1.final (V1 m ρ) c)).trans
    (congrArg (quant d2048) (show V1 m ρ c main_arg3 = m ((c.tc : Thread nD τ).loc main_arg3) from (W1_of_ne m ρ c main_arg3 (by decide))))

theorem q3 : W3 m ρ c (Proc.devRef .tc main_v2) = quant d2048 (m ((c.tc : Thread nD τ).loc main_arg5)) :=
  ((W3_arr m ρ c 1).trans (KReg2.final (V2 m ρ) c)).trans
    (congrArg (quant d2048) (show V2 m ρ c main_arg5 = m ((c.tc : Thread nD τ).loc main_arg5) from ((W2_of_ne m ρ c main_arg5 (by decide)).trans (W1_of_ne m ρ c main_arg5 (by decide)))))

theorem q4 : W4 m ρ c (Proc.devRef .tc main_v3) = quant d2048 (m ((c.tc : Thread nD τ).loc main_arg7)) :=
  ((W4_arr m ρ c 1).trans (KReg3.final (V3 m ρ) c)).trans
    (congrArg (quant d2048) (show V3 m ρ c main_arg7 = m ((c.tc : Thread nD τ).loc main_arg7) from ((W3_of_ne m ρ c main_arg7 (by decide)).trans ((W2_of_ne m ρ c main_arg7 (by decide)).trans (W1_of_ne m ρ c main_arg7 (by decide))))))

/-! ## The first hidden layer -/

theorem b1 : W5 m ρ c (Proc.devRef .tc main_v4) = shapeCast (Sh2 1 2048) (m ((c.tc : Thread nD τ).loc main_arg2)) shapeCasts_S2048_S1x2048 := by
  show StableHlo.after hostOps4 (W4 m ρ c) (Proc.devRef .tc main_v4) = _
  after_results
  exact congrArg (fun x => shapeCast (Sh2 1 2048) x shapeCasts_S2048_S1x2048)
    (show W4 m ρ c (Proc.devRef .tc main_arg2) = m ((c.tc : Thread nD τ).loc main_arg2) from ((W4_of_ne m ρ c main_arg2 (by decide)).trans ((W3_of_ne m ρ c main_arg2 (by decide)).trans ((W2_of_ne m ρ c main_arg2 (by decide)).trans (W1_of_ne m ρ c main_arg2 (by decide))))))

theorem h1 : W6 m ρ c (Proc.devRef .tc main_v5)
    = relu (dense (m ((c.tc : Thread nD τ).loc main_arg0)) (quant d1024 (m ((c.tc : Thread nD τ).loc main_arg1))) (m ((c.tc : Thread nD τ).loc main_arg2))) := by
  refine ((W6_arr m ρ c 3).trans (KReg4.final (V5 m ρ) c)).trans ?_
  have e0 : V5 m ρ c main_arg0 = m ((c.tc : Thread nD τ).loc main_arg0) := ((show W5 m ρ c (Proc.devRef .tc main_arg0) = W4 m ρ c (Proc.devRef .tc main_arg0) from by
      show StableHlo.after hostOps4 (W4 m ρ c) (Proc.devRef .tc main_arg0) = _
      after_results).trans ((W4_of_ne m ρ c main_arg0 (by decide)).trans ((W3_of_ne m ρ c main_arg0 (by decide)).trans ((W2_of_ne m ρ c main_arg0 (by decide)).trans (W1_of_ne m ρ c main_arg0 (by decide))))))
  have e1 : V5 m ρ c main_v0 = quant d1024 (m ((c.tc : Thread nD τ).loc main_arg1)) := ((show W5 m ρ c (Proc.devRef .tc main_v0) = W4 m ρ c (Proc.devRef .tc main_v0) from by
      show StableHlo.after hostOps4 (W4 m ρ c) (Proc.devRef .tc main_v0) = _
      after_results).trans ((W4_of_ne m ρ c main_v0 (by decide)).trans ((W3_of_ne m ρ c main_v0 (by decide)).trans (W2_of_ne m ρ c main_v0 (by decide))))).trans (q1 m ρ c)
  have e2 : V5 m ρ c main_v4 = _ := b1 m ρ c
  rw [e0, e1, e2, dense2_cast]

/-! ## The second hidden layer -/

theorem b2 : W7 m ρ c (Proc.devRef .tc main_v6) = shapeCast (Sh2 1 2048) (m ((c.tc : Thread nD τ).loc main_arg4)) shapeCasts_S2048_S1x2048 := by
  show StableHlo.after hostOps5 (W6 m ρ c) (Proc.devRef .tc main_v6) = _
  after_results
  exact congrArg (fun x => shapeCast (Sh2 1 2048) x shapeCasts_S2048_S1x2048)
    (show W6 m ρ c (Proc.devRef .tc main_arg4) = m ((c.tc : Thread nD τ).loc main_arg4) from ((W6_of_ne m ρ c main_arg4 (by decide)).trans ((show W5 m ρ c (Proc.devRef .tc main_arg4) = W4 m ρ c (Proc.devRef .tc main_arg4) from by
      show StableHlo.after hostOps4 (W4 m ρ c) (Proc.devRef .tc main_arg4) = _
      after_results).trans ((W4_of_ne m ρ c main_arg4 (by decide)).trans ((W3_of_ne m ρ c main_arg4 (by decide)).trans ((W2_of_ne m ρ c main_arg4 (by decide)).trans (W1_of_ne m ρ c main_arg4 (by decide))))))))

theorem h2 : W8 m ρ c (Proc.devRef .tc main_v7)
    = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((W8_arr m ρ c 3).trans (KReg5.final (V7 m ρ) c)).trans ?_
  have e0 : V7 m ρ c main_v5 = _ := (show W7 m ρ c (Proc.devRef .tc main_v5) = W6 m ρ c (Proc.devRef .tc main_v5) from by
      show StableHlo.after hostOps5 (W6 m ρ c) (Proc.devRef .tc main_v5) = _
      after_results).trans (h1 m ρ c)
  have e1 : V7 m ρ c main_v1 = quant d2048 (m ((c.tc : Thread nD τ).loc main_arg3)) := ((show W7 m ρ c (Proc.devRef .tc main_v1) = W6 m ρ c (Proc.devRef .tc main_v1) from by
      show StableHlo.after hostOps5 (W6 m ρ c) (Proc.devRef .tc main_v1) = _
      after_results).trans ((W6_of_ne m ρ c main_v1 (by decide)).trans ((show W5 m ρ c (Proc.devRef .tc main_v1) = W4 m ρ c (Proc.devRef .tc main_v1) from by
      show StableHlo.after hostOps4 (W4 m ρ c) (Proc.devRef .tc main_v1) = _
      after_results).trans ((W4_of_ne m ρ c main_v1 (by decide)).trans (W3_of_ne m ρ c main_v1 (by decide)))))).trans (q2 m ρ c)
  have e2 : V7 m ρ c main_v6 = _ := b2 m ρ c
  rw [e0, e1, e2, dense2_cast]
  rfl

/-! ## The two heads -/

theorem b3 : W9 m ρ c (Proc.devRef .tc main_v8) = shapeCast (Sh2 1 4096) (m ((c.tc : Thread nD τ).loc main_arg6)) shapeCasts_S4096_S1x4096 := by
  show StableHlo.after hostOps6 (W8 m ρ c) (Proc.devRef .tc main_v8) = _
  after_results
  exact congrArg (fun x => shapeCast (Sh2 1 4096) x shapeCasts_S4096_S1x4096)
    (show W8 m ρ c (Proc.devRef .tc main_arg6) = m ((c.tc : Thread nD τ).loc main_arg6) from ((W8_of_ne m ρ c main_arg6 (by decide)).trans ((show W7 m ρ c (Proc.devRef .tc main_arg6) = W6 m ρ c (Proc.devRef .tc main_arg6) from by
      show StableHlo.after hostOps5 (W6 m ρ c) (Proc.devRef .tc main_arg6) = _
      after_results).trans ((W6_of_ne m ρ c main_arg6 (by decide)).trans ((show W5 m ρ c (Proc.devRef .tc main_arg6) = W4 m ρ c (Proc.devRef .tc main_arg6) from by
      show StableHlo.after hostOps4 (W4 m ρ c) (Proc.devRef .tc main_arg6) = _
      after_results).trans ((W4_of_ne m ρ c main_arg6 (by decide)).trans ((W3_of_ne m ρ c main_arg6 (by decide)).trans ((W2_of_ne m ρ c main_arg6 (by decide)).trans (W1_of_ne m ρ c main_arg6 (by decide))))))))))

theorem h2_at9 : W9 m ρ c (Proc.devRef .tc main_v7)
    = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (show W9 m ρ c (Proc.devRef .tc main_v7) = W8 m ρ c (Proc.devRef .tc main_v7) from by
      show StableHlo.after hostOps6 (W8 m ρ c) (Proc.devRef .tc main_v7) = _
      after_results).trans (h2 m ρ c)

theorem t1_at10 : W10 m ρ c (Proc.devRef .tc main_v9)
    = tier1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine ((W10_arr m ρ c 3).trans (KReg6.final (V9 m ρ) c)).trans ?_
  have e0 : V9 m ρ c main_v7 = _ := h2_at9 m ρ c
  have e1 : V9 m ρ c main_v2 = quant d2048 (m ((c.tc : Thread nD τ).loc main_arg5)) := ((show W9 m ρ c (Proc.devRef .tc main_v2) = W8 m ρ c (Proc.devRef .tc main_v2) from by
      show StableHlo.after hostOps6 (W8 m ρ c) (Proc.devRef .tc main_v2) = _
      after_results).trans ((W8_of_ne m ρ c main_v2 (by decide)).trans ((show W7 m ρ c (Proc.devRef .tc main_v2) = W6 m ρ c (Proc.devRef .tc main_v2) from by
      show StableHlo.after hostOps5 (W6 m ρ c) (Proc.devRef .tc main_v2) = _
      after_results).trans ((W6_of_ne m ρ c main_v2 (by decide)).trans ((show W5 m ρ c (Proc.devRef .tc main_v2) = W4 m ρ c (Proc.devRef .tc main_v2) from by
      show StableHlo.after hostOps4 (W4 m ρ c) (Proc.devRef .tc main_v2) = _
      after_results).trans (W4_of_ne m ρ c main_v2 (by decide))))))).trans (q3 m ρ c)
  have e2 : V9 m ρ c main_v8 = _ := b3 m ρ c
  rw [e0, e1, e2, dense2_cast]
  rfl

/-- The tier-1 result at the last boundary. -/
theorem t1 : W12 m ρ c (Proc.devRef .tc main_v9)
    = tier1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  ((W12_of_ne m ρ c main_v9 (by decide)).trans (show W11 m ρ c (Proc.devRef .tc main_v9) = W10 m ρ c (Proc.devRef .tc main_v9) from by
      show StableHlo.after hostOps7 (W10 m ρ c) (Proc.devRef .tc main_v9) = _
      after_results)).trans (t1_at10 m ρ c)

theorem b4 : W11 m ρ c (Proc.devRef .tc main_v10) = shapeCast (Sh2 1 32000) (m ((c.tc : Thread nD τ).loc main_arg8)) shapeCasts_S32000_S1x32000 := by
  show StableHlo.after hostOps7 (W10 m ρ c) (Proc.devRef .tc main_v10) = _
  after_results
  exact congrArg (fun x => shapeCast (Sh2 1 32000) x shapeCasts_S32000_S1x32000)
    (show W10 m ρ c (Proc.devRef .tc main_arg8) = m ((c.tc : Thread nD τ).loc main_arg8) from ((W10_of_ne m ρ c main_arg8 (by decide)).trans ((show W9 m ρ c (Proc.devRef .tc main_arg8) = W8 m ρ c (Proc.devRef .tc main_arg8) from by
      show StableHlo.after hostOps6 (W8 m ρ c) (Proc.devRef .tc main_arg8) = _
      after_results).trans ((W8_of_ne m ρ c main_arg8 (by decide)).trans ((show W7 m ρ c (Proc.devRef .tc main_arg8) = W6 m ρ c (Proc.devRef .tc main_arg8) from by
      show StableHlo.after hostOps5 (W6 m ρ c) (Proc.devRef .tc main_arg8) = _
      after_results).trans ((W6_of_ne m ρ c main_arg8 (by decide)).trans ((show W5 m ρ c (Proc.devRef .tc main_arg8) = W4 m ρ c (Proc.devRef .tc main_arg8) from by
      show StableHlo.after hostOps4 (W4 m ρ c) (Proc.devRef .tc main_arg8) = _
      after_results).trans ((W4_of_ne m ρ c main_arg8 (by decide)).trans ((W3_of_ne m ρ c main_arg8 (by decide)).trans ((W2_of_ne m ρ c main_arg8 (by decide)).trans (W1_of_ne m ρ c main_arg8 (by decide))))))))))))

/-- The second hidden layer is an input of the tier-1 region, which leaves it as found. -/
theorem h2_at10 : W10 m ρ c (Proc.devRef .tc main_v7) = W9 m ρ c (Proc.devRef .tc main_v7) :=
  (W10_arr m ρ c 0).trans (((dat6 (V9 m ρ) c).arrAt_in 0 rfl _).trans (A_eq6 (V9 m ρ) c 0))

/-- The tier-2 result at the last boundary. -/
theorem t2 : W12 m ρ c (Proc.devRef .tc main_v11)
    = tier2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  refine ((W12_arr m ρ c 3).trans (KReg7.final (V11 m ρ) c)).trans ?_
  have e0 : V11 m ρ c main_v7 = _ := ((show W11 m ρ c (Proc.devRef .tc main_v7) = W10 m ρ c (Proc.devRef .tc main_v7) from by
      show StableHlo.after hostOps7 (W10 m ρ c) (Proc.devRef .tc main_v7) = _
      after_results).trans (h2_at10 m ρ c)).trans (h2_at9 m ρ c)
  have e1 : V11 m ρ c main_v3 = quant d2048 (m ((c.tc : Thread nD τ).loc main_arg7)) := ((show W11 m ρ c (Proc.devRef .tc main_v3) = W10 m ρ c (Proc.devRef .tc main_v3) from by
      show StableHlo.after hostOps7 (W10 m ρ c) (Proc.devRef .tc main_v3) = _
      after_results).trans ((W10_of_ne m ρ c main_v3 (by decide)).trans ((show W9 m ρ c (Proc.devRef .tc main_v3) = W8 m ρ c (Proc.devRef .tc main_v3) from by
      show StableHlo.after hostOps6 (W8 m ρ c) (Proc.devRef .tc main_v3) = _
      after_results).trans ((W8_of_ne m ρ c main_v3 (by decide)).trans ((show W7 m ρ c (Proc.devRef .tc main_v3) = W6 m ρ c (Proc.devRef .tc main_v3) from by
      show StableHlo.after hostOps5 (W6 m ρ c) (Proc.devRef .tc main_v3) = _
      after_results).trans ((W6_of_ne m ρ c main_v3 (by decide)).trans (show W5 m ρ c (Proc.devRef .tc main_v3) = W4 m ρ c (Proc.devRef .tc main_v3) from by
      show StableHlo.after hostOps4 (W4 m ρ c) (Proc.devRef .tc main_v3) = _
      after_results))))))).trans (q4 m ρ c)
  have e2 : V11 m ρ c main_v10 = _ := b4 m ρ c
  rw [e0, e1, e2, dense2_cast]
  rfl

end Cert.Tern.KFold

end
-- ==== Proof.RefSide.lean ====
/-
  The reference program computes the ternary decoder of the specification.

  For a weight matrix `w` the reference takes `|w|`, sums each row, divides by the row length, scales by the
  literal 0.7 to get the row's threshold `t`, compares every entry with `t` and with `−t`, selects among the
  literals 1, −1, 0, and then forms `w + (q − w)`.  For a finite entry `w` this last form is `q`; that is the only
  place where finiteness of the weights is used.  A layer then multiplies the rows of its input with the rows of the
  quantized weights (a transpose followed by a contraction over the shared axis), adds the bias along the rows, and,
  for the two hidden layers, takes the maximum with 0.  Each of these steps is read entry by entry and matched with
  the corresponding definition of the specification; the four layers are the same argument at different shapes.
-/
import proofs.«177872_j77824807404254_2_alg».proof.Proof.Gen.ReferenceIdeal.Read
import proofs.«177872_j77824807404254_2_alg».proof.Proof.Spec

noncomputable section

namespace Cert.Tern.Ref

open Idealize.ShloMosaic Idealize.ShloMosaic.ValueIdx Cert.ReferenceIdeal.Read
open scoped BigOperators

/-- The straight-through form `x + (q − x)` of a finite entry `x`, with `q` selected by comparing `x` with `t` and
    `−t`, is the ternary value of `x` against `t`. -/
theorem ste (t x : EReal) (h : ∃ r : ℝ, x = (r : EReal)) :
    x + (Scalar.select (Ideal.cmp .ogt x t) cOne (Scalar.select (Ideal.cmp .olt x (-t)) cNegOne cZero) - x) = tern t x := by
  obtain ⟨r, rfl⟩ := h
  rw [add_sub_cancel_real]
  unfold tern
  rw [show cZero - t = -t from by rw [show cZero = 0 from Ideal.ofBits_zero_f32, zero_sub]]

/-! ## Layer 1: weights `2048 × 1024`, input `8192 × 1024` -/

theorem sidx1 (a : Fin 2048) (c : Fin 1) (k : Fin 1024) :
    idx_main_v1 (idx_main_v2 (ix2 a c)) k = ix2 a k :=
  funext fun d => Fin.ext (by match d with | ⟨0, _⟩ => rfl | ⟨1, _⟩ => rfl)

/-- The threshold column of the reference is the specification's threshold of the row. -/
theorem thr1 (x1 : (⟨Cert.ReferenceIdeal.S2048x1024, .f32⟩ : BufTy).Contents (Elt Ideal)) (a : Fin 2048) (c : Fin 1) :
    val_main_v6 (F := Ideal) x1 (ix2 a c) = thr d1024 (row x1 a) := by
  rw [val_main_v6_apply, val_main_v5_apply, val_main_cst_1_apply, val_main_v4_apply, val_main_v2_apply,
    val_main_v3_apply, val_main_cst_0_apply, val_main_v1_apply, val_main_cst_apply]
  simp only [Ideal.mulf_def, Ideal.hostDivf_def, Ideal.ofBits_def, Ideal.ofBits_zero_f32, zero_add, sidx1]
  rfl

theorem bidx1a (a : Fin 2048) (b : Fin 1024) : idx_main_v7 (ix2 a b) = ix2 a (0 : Fin 1) :=
  funext fun d => Fin.ext (by match d with | ⟨0, _⟩ => rfl | ⟨1, _⟩ => rfl)

theorem bidx1b (a : Fin 2048) (b : Fin 1024) : idx_main_v10 (ix2 a b) = ix2 a (0 : Fin 1) :=
  funext fun d => Fin.ext (by match d with | ⟨0, _⟩ => rfl | ⟨1, _⟩ => rfl)

/-- The reference's quantized weights are the specification's, for finite weights. -/
theorem quant1 (x1 : (⟨Cert.ReferenceIdeal.S2048x1024, .f32⟩ : BufTy).Contents (Elt Ideal))
    (h : ∀ i, ∃ r : ℝ, x1 i = (r : EReal)) :
    val_main_v16 (F := Ideal) x1 = quant d1024 x1 := by
  funext i
  obtain ⟨a, b, rfl⟩ : ∃ (a : Fin 2048) (b : Fin 1024), i = ix2 a b := ⟨i 0, i 1, eq_ix2 i⟩
  rw [val_main_v16_apply, val_main_v15_apply, val_main_v14_apply, val_main_v13_apply, val_main_v8_apply,
    val_main_v7_apply, val_main_call1_v0_apply, val_main_cst_4_apply, val_main_v12_apply, val_main_v11_apply,
    val_main_v10_apply, val_main_v9_apply, val_main_call0_v0_apply, val_main_cst_2_apply, val_main_call0_v1_apply,
    val_main_cst_3_apply, bidx1a, bidx1b, thr1]
  exact ste (thr d1024 (row x1 a)) (x1 (ix2 a b)) (h _)

theorem lidx1 (a : Fin 8192) (b : Fin 2048) (k : Fin 1024) : lidx_main_v18 (ix2 a b) k = ix2 a k :=
  funext fun d => Fin.ext (by match d with | ⟨0, _⟩ => rfl | ⟨1, _⟩ => rfl)

theorem ridx1 (a : Fin 8192) (b : Fin 2048) (k : Fin 1024) :
    idx_main_v17 (ridx_main_v18 (ix2 a b) k) = ix2 b k :=
  funext fun d => Fin.ext (by match d with | ⟨0, _⟩ => rfl | ⟨1, _⟩ => rfl)

theorem cidx1 (a : Fin 8192) (b : Fin 2048) : idx_main_v19 (idx_main_v20 (ix2 a b)) = ix1 b :=
  funext fun d => Fin.ext (by match d with | ⟨0, _⟩ => rfl)

/-- The reference's first hidden layer is the dense layer on its quantized weights, followed by `max · 0`. -/
theorem dense1 (x0 : (⟨Cert.ReferenceIdeal.S8192x1024, .f32⟩ : BufTy).Contents (Elt Ideal))
    (x1 : (⟨Cert.ReferenceIdeal.S2048x1024, .f32⟩ : BufTy).Contents (Elt Ideal))
    (x2 : (⟨Cert.ReferenceIdeal.S2048, .f32⟩ : BufTy).Contents (Elt Ideal)) :
    val_main_v22 (F := Ideal) x0 x1 x2 = relu (dense x0 (val_main_v16 (F := Ideal) x1) x2) := by
  funext i
  obtain ⟨a, b, rfl⟩ : ∃ (a : Fin 8192) (b : Fin 2048), i = ix2 a b := ⟨i 0, i 1, eq_ix2 i⟩
  rw [val_main_v22_apply, val_main_v21_apply, val_main_v18_apply, val_main_v20_apply, val_main_v19_apply,
    val_main_call2_v0_apply, val_main_call2_cst_apply, cidx1]
  simp only [val_main_v17_apply, lidx1, ridx1]
  rfl

/-! ## Layer 2: weights `2048 × 2048`, input the first hidden layer `8192 × 2048` -/

theorem sidx2 (a : Fin 2048) (c : Fin 1) (k : Fin 2048) :
    idx_main_v24 (idx_main_v25 (ix2 a c)) k = ix2 a k :=
  funext fun d => Fin.ext (by match d with | ⟨0, _⟩ => rfl | ⟨1, _⟩ => rfl)

/-- The threshold column of the reference is the specification's threshold of the row. -/
theorem thr2 (x3 : (⟨Cert.ReferenceIdeal.S2048x2048, .f32⟩ : BufTy).Contents (Elt Ideal)) (a : Fin 2048) (c : Fin 1) :
    val_main_v29 (F := Ideal) x3 (ix2 a c) = thr d2048 (row x3 a) := by
  rw [val_main_v29_apply, val_main_v28_apply, val_main_cst_7_apply, val_main_v27_apply, val_main_v25_apply,
    val_main_v26_apply, val_main_cst_6_apply, val_main_v24_apply, val_main_cst_5_apply]
  simp only [Ideal.mulf_def, Ideal.hostDivf_def, Ideal.ofBits_def, Ideal.ofBits_zero_f32, zero_add, sidx2]
  rfl

theorem bidx2a (a : Fin 2048) (b : Fin 2048) : idx_main_v30 (ix2 a b) = ix2 a (0 : Fin 1) :=
  funext fun d => Fin.ext (by match d with | ⟨0, _⟩ => rfl | ⟨1, _⟩ => rfl)

theorem bidx2b (a : Fin 2048) (b : Fin 2048) : idx_main_v33 (ix2 a b) = ix2 a (0 : Fin 1) :=
  funext fun d => Fin.ext (by match d with | ⟨0, _⟩ => rfl | ⟨1, _⟩ => rfl)

/-- The reference's quantized weights are the specification's, for finite weights. -/
theorem quant2 (x3 : (⟨Cert.ReferenceIdeal.S2048x2048, .f32⟩ : BufTy).Contents (Elt Ideal))
    (h : ∀ i, ∃ r : ℝ, x3 i = (r : EReal)) :
    val_main_v39 (F := Ideal) x3 = quant d2048 x3 := by
  funext i
  obtain ⟨a, b, rfl⟩ : ∃ (a : Fin 2048) (b : Fin 2048), i = ix2 a b := ⟨i 0, i 1, eq_ix2 i⟩
  rw [val_main_v39_apply, val_main_v38_apply, val_main_v37_apply, val_main_v36_apply, val_main_v31_apply,
    val_main_v30_apply, val_main_call4_v0_apply, val_main_cst_10_apply, val_main_v35_apply, val_main_v34_apply,
    val_main_v33_apply, val_main_v32_apply, val_main_call3_v0_apply, val_main_cst_8_apply, val_main_call3_v1_apply,
    val_main_cst_9_apply, bidx2a, bidx2b, thr2]
  exact ste (thr d2048 (row x3 a)) (x3 (ix2 a b)) (h _)

theorem lidx2 (a : Fin 8192) (b : Fin 2048) (k : Fin 2048) : lidx_main_v41 (ix2 a b) k = ix2 a k :=
  funext fun d => Fin.ext (by match d with | ⟨0, _⟩ => rfl | ⟨1, _⟩ => rfl)

theorem ridx2 (a : Fin 8192) (b : Fin 2048) (k : Fin 2048) :
    idx_main_v40 (ridx_main_v41 (ix2 a b) k) = ix2 b k :=
  funext fun d => Fin.ext (by match d with | ⟨0, _⟩ => rfl | ⟨1, _⟩ => rfl)

theorem cidx2 (a : Fin 8192) (b : Fin 2048) : idx_main_v42 (idx_main_v43 (ix2 a b)) = ix1 b :=
  funext fun d => Fin.ext (by match d with | ⟨0, _⟩ => rfl)

/-- The reference's second hidden layer is the dense layer on the first hidden layer and its quantized weights, followed by `max · 0`. -/
theorem dense2 (x0 : (⟨Cert.ReferenceIdeal.S8192x1024, .f32⟩ : BufTy).Contents (Elt Ideal))
    (x1 : (⟨Cert.ReferenceIdeal.S2048x1024, .f32⟩ : BufTy).Contents (Elt Ideal))
    (x2 : (⟨Cert.ReferenceIdeal.S2048, .f32⟩ : BufTy).Contents (Elt Ideal))
    (x3 : (⟨Cert.ReferenceIdeal.S2048x2048, .f32⟩ : BufTy).Contents (Elt Ideal))
    (x4 : (⟨Cert.ReferenceIdeal.S2048, .f32⟩ : BufTy).Contents (Elt Ideal)) :
    val_main_v45 (F := Ideal) x0 x1 x2 x3 x4 = relu (dense (val_main_v22 (F := Ideal) x0 x1 x2) (val_main_v39 (F := Ideal) x3) x4) := by
  funext i
  obtain ⟨a, b, rfl⟩ : ∃ (a : Fin 8192) (b : Fin 2048), i = ix2 a b := ⟨i 0, i 1, eq_ix2 i⟩
  rw [val_main_v45_apply, val_main_v44_apply, val_main_v41_apply, val_main_v43_apply, val_main_v42_apply,
    val_main_call5_v0_apply, val_main_call5_cst_apply, cidx2]
  simp only [val_main_v40_apply, lidx2, ridx2]
  rfl

/-! ## Head 1: weights `4096 × 2048`, input the second hidden layer `8192 × 2048` -/

theorem sidx3 (a : Fin 4096) (c : Fin 1) (k : Fin 2048) :
    idx_main_v47 (idx_main_v48 (ix2 a c)) k = ix2 a k :=
  funext fun d => Fin.ext (by match d with | ⟨0, _⟩ => rfl | ⟨1, _⟩ => rfl)

/-- The threshold column of the reference is the specification's threshold of the row. -/
theorem thr3 (x5 : (⟨Cert.ReferenceIdeal.S4096x2048, .f32⟩ : BufTy).Contents (Elt Ideal)) (a : Fin 4096) (c : Fin 1) :
    val_main_v52 (F := Ideal) x5 (ix2 a c) = thr d2048 (row x5 a) := by
  rw [val_main_v52_apply, val_main_v51_apply, val_main_cst_13_apply, val_main_v50_apply, val_main_v48_apply,
    val_main_v49_apply, val_main_cst_12_apply, val_main_v47_apply, val_main_cst_11_apply]
  simp only [Ideal.mulf_def, Ideal.hostDivf_def, Ideal.ofBits_def, Ideal.ofBits_zero_f32, zero_add, sidx3]
  rfl

theorem bidx3a (a : Fin 4096) (b : Fin 2048) : idx_main_v53 (ix2 a b) = ix2 a (0 : Fin 1) :=
  funext fun d => Fin.ext (by match d with | ⟨0, _⟩ => rfl | ⟨1, _⟩ => rfl)

theorem bidx3b (a : Fin 4096) (b : Fin 2048) : idx_main_v56 (ix2 a b) = ix2 a (0 : Fin 1) :=
  funext fun d => Fin.ext (by match d with | ⟨0, _⟩ => rfl | ⟨1, _⟩ => rfl)

/-- The reference's quantized weights are the specification's, for finite weights. -/
theorem quant3 (x5 : (⟨Cert.ReferenceIdeal.S4096x2048, .f32⟩ : BufTy).Contents (Elt Ideal))
    (h : ∀ i, ∃ r : ℝ, x5 i = (r : EReal)) :
    val_main_v62 (F := Ideal) x5 = quant d2048 x5 := by
  funext i
  obtain ⟨a, b, rfl⟩ : ∃ (a : Fin 4096) (b : Fin 2048), i = ix2 a b := ⟨i 0, i 1, eq_ix2 i⟩
  rw [val_main_v62_apply, val_main_v61_apply, val_main_v60_apply, val_main_v59_apply, val_main_v54_apply,
    val_main_v53_apply, val_main_call7_v0_apply, val_main_cst_16_apply, val_main_v58_apply, val_main_v57_apply,
    val_main_v56_apply, val_main_v55_apply, val_main_call6_v0_apply, val_main_cst_14_apply, val_main_call6_v1_apply,
    val_main_cst_15_apply, bidx3a, bidx3b, thr3]
  exact ste (thr d2048 (row x5 a)) (x5 (ix2 a b)) (h _)

theorem lidx3 (a : Fin 8192) (b : Fin 4096) (k : Fin 2048) : lidx_main_v64 (ix2 a b) k = ix2 a k :=
  funext fun d => Fin.ext (by match d with | ⟨0, _⟩ => rfl | ⟨1, _⟩ => rfl)

theorem ridx3 (a : Fin 8192) (b : Fin 4096) (k : Fin 2048) :
    idx_main_v63 (ridx_main_v64 (ix2 a b) k) = ix2 b k :=
  funext fun d => Fin.ext (by match d with | ⟨0, _⟩ => rfl | ⟨1, _⟩ => rfl)

theorem cidx3 (a : Fin 8192) (b : Fin 4096) : idx_main_v65 (idx_main_v66 (ix2 a b)) = ix1 b :=
  funext fun d => Fin.ext (by match d with | ⟨0, _⟩ => rfl)

/-- The reference's first head is the dense layer on the second hidden layer and its quantized weights. -/
theorem dense3 (x0 : (⟨Cert.ReferenceIdeal.S8192x1024, .f32⟩ : BufTy).Contents (Elt Ideal))
    (x1 : (⟨Cert.ReferenceIdeal.S2048x1024, .f32⟩ : BufTy).Contents (Elt Ideal))
    (x2 : (⟨Cert.ReferenceIdeal.S2048, .f32⟩ : BufTy).Contents (Elt Ideal))
    (x3 : (⟨Cert.ReferenceIdeal.S2048x2048, .f32⟩ : BufTy).Contents (Elt Ideal))
    (x4 : (⟨Cert.ReferenceIdeal.S2048, .f32⟩ : BufTy).Contents (Elt Ideal))
    (x5 : (⟨Cert.ReferenceIdeal.S4096x2048, .f32⟩ : BufTy).Contents (Elt Ideal))
    (x6 : (⟨Cert.ReferenceIdeal.S4096, .f32⟩ : BufTy).Contents (Elt Ideal)) :
    val_main_v67 (F := Ideal) x0 x1 x2 x3 x4 x5 x6 = dense (val_main_v45 (F := Ideal) x0 x1 x2 x3 x4) (val_main_v62 (F := Ideal) x5) x6 := by
  funext i
  obtain ⟨a, b, rfl⟩ : ∃ (a : Fin 8192) (b : Fin 4096), i = ix2 a b := ⟨i 0, i 1, eq_ix2 i⟩
  rw [val_main_v67_apply, val_main_v64_apply, val_main_v66_apply, val_main_v65_apply,
    cidx3]
  simp only [val_main_v63_apply, lidx3, ridx3]
  rfl

/-! ## Head 2: weights `32000 × 2048`, input the second hidden layer `8192 × 2048` -/

theorem sidx4 (a : Fin 32000) (c : Fin 1) (k : Fin 2048) :
    idx_main_v69 (idx_main_v70 (ix2 a c)) k = ix2 a k :=
  funext fun d => Fin.ext (by match d with | ⟨0, _⟩ => rfl | ⟨1, _⟩ => rfl)

/-- The threshold column of the reference is the specification's threshold of the row. -/
theorem thr4 (x7 : (⟨Cert.ReferenceIdeal.S32000x2048, .f32⟩ : BufTy).Contents (Elt Ideal)) (a : Fin 32000) (c : Fin 1) :
    val_main_v74 (F := Ideal) x7 (ix2 a c) = thr d2048 (row x7 a) := by
  rw [val_main_v74_apply, val_main_v73_apply, val_main_cst_19_apply, val_main_v72_apply, val_main_v70_apply,
    val_main_v71_apply, val_main_cst_18_apply, val_main_v69_apply, val_main_cst_17_apply]
  simp only [Ideal.mulf_def, Ideal.hostDivf_def, Ideal.ofBits_def, Ideal.ofBits_zero_f32, zero_add, sidx4]
  rfl

theorem bidx4a (a : Fin 32000) (b : Fin 2048) : idx_main_v75 (ix2 a b) = ix2 a (0 : Fin 1) :=
  funext fun d => Fin.ext (by match d with | ⟨0, _⟩ => rfl | ⟨1, _⟩ => rfl)

theorem bidx4b (a : Fin 32000) (b : Fin 2048) : idx_main_v78 (ix2 a b) = ix2 a (0 : Fin 1) :=
  funext fun d => Fin.ext (by match d with | ⟨0, _⟩ => rfl | ⟨1, _⟩ => rfl)

/-- The reference's quantized weights are the specification's, for finite weights. -/
theorem quant4 (x7 : (⟨Cert.ReferenceIdeal.S32000x2048, .f32⟩ : BufTy).Contents (Elt Ideal))
    (h : ∀ i, ∃ r : ℝ, x7 i = (r : EReal)) :
    val_main_v84 (F := Ideal) x7 = quant d2048 x7 := by
  funext i
  obtain ⟨a, b, rfl⟩ : ∃ (a : Fin 32000) (b : Fin 2048), i = ix2 a b := ⟨i 0, i 1, eq_ix2 i⟩
  rw [val_main_v84_apply, val_main_v83_apply, val_main_v82_apply, val_main_v81_apply, val_main_v76_apply,
    val_main_v75_apply, val_main_call9_v0_apply, val_main_cst_22_apply, val_main_v80_apply, val_main_v79_apply,
    val_main_v78_apply, val_main_v77_apply, val_main_call8_v0_apply, val_main_cst_20_apply, val_main_call8_v1_apply,
    val_main_cst_21_apply, bidx4a, bidx4b, thr4]
  exact ste (thr d2048 (row x7 a)) (x7 (ix2 a b)) (h _)

theorem lidx4 (a : Fin 8192) (b : Fin 32000) (k : Fin 2048) : lidx_main_v86 (ix2 a b) k = ix2 a k :=
  funext fun d => Fin.ext (by match d with | ⟨0, _⟩ => rfl | ⟨1, _⟩ => rfl)

theorem ridx4 (a : Fin 8192) (b : Fin 32000) (k : Fin 2048) :
    idx_main_v85 (ridx_main_v86 (ix2 a b) k) = ix2 b k :=
  funext fun d => Fin.ext (by match d with | ⟨0, _⟩ => rfl | ⟨1, _⟩ => rfl)

theorem cidx4 (a : Fin 8192) (b : Fin 32000) : idx_main_v87 (idx_main_v88 (ix2 a b)) = ix1 b :=
  funext fun d => Fin.ext (by match d with | ⟨0, _⟩ => rfl)

/-- The reference's second head is the dense layer on the second hidden layer and its quantized weights. -/
theorem dense4 (x0 : (⟨Cert.ReferenceIdeal.S8192x1024, .f32⟩ : BufTy).Contents (Elt Ideal))
    (x1 : (⟨Cert.ReferenceIdeal.S2048x1024, .f32⟩ : BufTy).Contents (Elt Ideal))
    (x2 : (⟨Cert.ReferenceIdeal.S2048, .f32⟩ : BufTy).Contents (Elt Ideal))
    (x3 : (⟨Cert.ReferenceIdeal.S2048x2048, .f32⟩ : BufTy).Contents (Elt Ideal))
    (x4 : (⟨Cert.ReferenceIdeal.S2048, .f32⟩ : BufTy).Contents (Elt Ideal))
    (x7 : (⟨Cert.ReferenceIdeal.S32000x2048, .f32⟩ : BufTy).Contents (Elt Ideal))
    (x8 : (⟨Cert.ReferenceIdeal.S32000, .f32⟩ : BufTy).Contents (Elt Ideal)) :
    val_main_v89 (F := Ideal) x0 x1 x2 x3 x4 x7 x8 = dense (val_main_v45 (F := Ideal) x0 x1 x2 x3 x4) (val_main_v84 (F := Ideal) x7) x8 := by
  funext i
  obtain ⟨a, b, rfl⟩ : ∃ (a : Fin 8192) (b : Fin 32000), i = ix2 a b := ⟨i 0, i 1, eq_ix2 i⟩
  rw [val_main_v89_apply, val_main_v86_apply, val_main_v88_apply, val_main_v87_apply,
    cidx4]
  simp only [val_main_v85_apply, lidx4, ridx4]
  rfl

/-! ## The two outputs -/

/-- The reference's second hidden layer is the specification's. -/
theorem ref_hidden (x0 : (⟨Cert.ReferenceIdeal.S8192x1024, .f32⟩ : BufTy).Contents (Elt Ideal))
    (x1 : (⟨Cert.ReferenceIdeal.S2048x1024, .f32⟩ : BufTy).Contents (Elt Ideal))
    (x2 : (⟨Cert.ReferenceIdeal.S2048, .f32⟩ : BufTy).Contents (Elt Ideal))
    (x3 : (⟨Cert.ReferenceIdeal.S2048x2048, .f32⟩ : BufTy).Contents (Elt Ideal))
    (x4 : (⟨Cert.ReferenceIdeal.S2048, .f32⟩ : BufTy).Contents (Elt Ideal))
    (h1 : ∀ i, ∃ r : ℝ, x1 i = (r : EReal)) (h3 : ∀ i, ∃ r : ℝ, x3 i = (r : EReal)) :
    val_main_v45 (F := Ideal) x0 x1 x2 x3 x4 = hidden x0 x1 x2 x3 x4 := by
  rw [dense2, dense1, quant1 x1 h1, quant2 x3 h3]
  rfl

theorem ref_tier1 (x0 : (⟨Cert.ReferenceIdeal.S8192x1024, .f32⟩ : BufTy).Contents (Elt Ideal))
    (x1 : (⟨Cert.ReferenceIdeal.S2048x1024, .f32⟩ : BufTy).Contents (Elt Ideal))
    (x2 : (⟨Cert.ReferenceIdeal.S2048, .f32⟩ : BufTy).Contents (Elt Ideal))
    (x3 : (⟨Cert.ReferenceIdeal.S2048x2048, .f32⟩ : BufTy).Contents (Elt Ideal))
    (x4 : (⟨Cert.ReferenceIdeal.S2048, .f32⟩ : BufTy).Contents (Elt Ideal))
    (x5 : (⟨Cert.ReferenceIdeal.S4096x2048, .f32⟩ : BufTy).Contents (Elt Ideal))
    (x6 : (⟨Cert.ReferenceIdeal.S4096, .f32⟩ : BufTy).Contents (Elt Ideal))
    (h1 : ∀ i, ∃ r : ℝ, x1 i = (r : EReal)) (h3 : ∀ i, ∃ r : ℝ, x3 i = (r : EReal)) (h5 : ∀ i, ∃ r : ℝ, x5 i = (r : EReal)) :
    Cert.ReferenceIdeal.Read.val_main_v67 (F := Ideal) x0 x1 x2 x3 x4 x5 x6 = Cert.Tern.tier1 x0 x1 x2 x3 x4 x5 x6 := by
  rw [dense3, ref_hidden x0 x1 x2 x3 x4 h1 h3, quant3 x5 h5]
  rfl

theorem ref_tier2 (x0 : (⟨Cert.ReferenceIdeal.S8192x1024, .f32⟩ : BufTy).Contents (Elt Ideal))
    (x1 : (⟨Cert.ReferenceIdeal.S2048x1024, .f32⟩ : BufTy).Contents (Elt Ideal))
    (x2 : (⟨Cert.ReferenceIdeal.S2048, .f32⟩ : BufTy).Contents (Elt Ideal))
    (x3 : (⟨Cert.ReferenceIdeal.S2048x2048, .f32⟩ : BufTy).Contents (Elt Ideal))
    (x4 : (⟨Cert.ReferenceIdeal.S2048, .f32⟩ : BufTy).Contents (Elt Ideal))
    (x7 : (⟨Cert.ReferenceIdeal.S32000x2048, .f32⟩ : BufTy).Contents (Elt Ideal))
    (x8 : (⟨Cert.ReferenceIdeal.S32000, .f32⟩ : BufTy).Contents (Elt Ideal))
    (h1 : ∀ i, ∃ r : ℝ, x1 i = (r : EReal)) (h3 : ∀ i, ∃ r : ℝ, x3 i = (r : EReal)) (h7 : ∀ i, ∃ r : ℝ, x7 i = (r : EReal)) :
    Cert.ReferenceIdeal.Read.val_main_v89 (F := Ideal) x0 x1 x2 x3 x4 x7 x8 = Cert.Tern.tier2 x0 x1 x2 x3 x4 x7 x8 := by
  rw [dense4, ref_hidden x0 x1 x2 x3 x4 h1 h3, quant4 x7 h7]
  rfl

end Cert.Tern.Ref

end
-- ==== Proof.Finite.lean ====
/-
  The precondition says that every entry of every argument array is finite; here: the four weight arrays.

  The precondition's predicate is, per argument array `x`, "every entry of `|x| < +∞` is true", and the nine results
  and-ed.  An and of one-bit words is 1 only if both are; a reduction by and over all axes that came out 1 met a 1 at
  every index; and an extended real `x` with `max x (−x) < ⊤` is neither `⊤` nor `⊥`, so it is a real number.
-/
import proofs.«177872_j77824807404254_2_alg».proof.Defs
import Idealize.ShloMosaic.Lib.ReduceAll
import Idealize.ShloMosaic.Lib.ValueIdx

noncomputable section

namespace Cert.Tern.Fin

open Idealize.ShloMosaic Idealize.SL.Sem

/-- The scalar shape has one index. -/
instance : Subsingleton (⟨0, ![]⟩ : Shape).Idx := ⟨fun _ _ => funext fun d => d.elim0⟩

/-- An extended real whose absolute value `max x (−x)` is below the f32 literal `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- If "all entries of `|x| < +∞`" came out true, every entry of `x` is a real number. -/
theorem finite_of_all {s : Shape} {axes : List (_root_.Fin s.rank)} (x : FVec Ideal s .f32)
    (hb : (⟨0, ![]⟩ : Shape).BroadcastsInDim s (![] : _root_.Fin 0 → _root_.Fin s.rank))
    (hred : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hred hu ValueIdx.ix0 = 1#1) :
    ∀ i, ∃ r : ℝ, x i = (r : EReal) := fun i =>
  real_of_abs_lt (x i) (Host.reduce_andi_all _ _ hred hu ValueIdx.ix0 e i)

theorem finite_weights [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg7) i = (r : EReal)) := by
  have h0 := congrFun (h c) ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨_, e1⟩, _⟩, e3⟩, _⟩, e5⟩, _⟩, e7⟩, _⟩ := h0
  exact ⟨finite_of_all _ _ _ _ e1, finite_of_all _ _ _ _ e3, finite_of_all _ _ _ _ e5, finite_of_all _ _ _ _ e7⟩

end Cert.Tern.Fin

end
-- ==== Proof.lean ====
/-
  The ternary decoder: a Pallas kernel program of eight regions against its jnp reference, over the extended reals.

  Both programs quantize each of four weight matrices row by row — the threshold of a row is the literal 0.7 times the
  mean of the row's absolute values, an entry becomes 1 above the threshold, −1 below its negative and 0 otherwise —
  and apply two dense layers followed by the maximum with 0 and two heads to the input.  The kernel does each
  quantization in a region of its own over blocks of 256 whole rows and each dense layer in a region over
  [2048, 256] output blocks; over the extended reals a block matmul into a zero accumulator, a lane sum and a change of
  float format are the plain sum, the plain sum and the identity, so each region leaves one whole-array function of
  the arrays it reads, and the eight compose to the specification's `tier1` and `tier2` of the arguments.  The reference
  forms `w + (q − w)` from the quantized `q`, which is `q` because the weights are finite (the precondition); everything
  else on its side is the same sums and comparisons.  The three frames are the generated ones (the reference's is its
  generated run with the results dropped); the idealization rewrote nothing, so `preserves` is trivial.
-/
import proofs.«177872_j77824807404254_2_alg».proof.Defs
import proofs.«177872_j77824807404254_2_alg».proof.Proof.Gen.Kernel
import proofs.«177872_j77824807404254_2_alg».proof.Proof.Gen.Kernel.Skeleton
import proofs.«177872_j77824807404254_2_alg».proof.Proof.Gen.Kernel.Launch
import proofs.«177872_j77824807404254_2_alg».proof.Proof.Gen.Kernel.Points
import proofs.«177872_j77824807404254_2_alg».proof.Proof.Gen.Kernel.Frame
import proofs.«177872_j77824807404254_2_alg».proof.Proof.Gen.KernelIdeal
import proofs.«177872_j77824807404254_2_alg».proof.Proof.Gen.KernelIdeal.Skeleton
import proofs.«177872_j77824807404254_2_alg».proof.Proof.Gen.KernelIdeal.Launch
import proofs.«177872_j77824807404254_2_alg».proof.Proof.Gen.KernelIdeal.Points
import proofs.«177872_j77824807404254_2_alg».proof.Proof.Gen.KernelIdeal.Frame
import proofs.«177872_j77824807404254_2_alg».proof.Proof.Gen.ReferenceIdeal
import proofs.«177872_j77824807404254_2_alg».proof.Proof.Gen.Pre_finite_inputs
import proofs.«177872_j77824807404254_2_alg».proof.Proof.Gen.ReferenceIdeal.Run
import proofs.«177872_j77824807404254_2_alg».proof.Proof.Gen.ReferenceIdeal.Read
import proofs.«177872_j77824807404254_2_alg».proof.Proof.Spec
import proofs.«177872_j77824807404254_2_alg».proof.Proof.KRun
import proofs.«177872_j77824807404254_2_alg».proof.Proof.KFold
import proofs.«177872_j77824807404254_2_alg».proof.Proof.RefSide
import proofs.«177872_j77824807404254_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The idealized kernel ends with its two results at `tier1` and `tier2` of the arguments (the run, with the last
    boundary's contents computed), and so does the reference (its generated run, its two result terms read stage by
    stage, the weights finite by the precondition), the two argument memories agreeing. -/
theorem algebraic : Cert.algebraic_KernelIdeal_ReferenceIdeal := by
  intro m ρ m' ρ' hpre hagree
  refine ⟨_, _, (θ_run Cert.KernelIdeal.defs _ _).mono
    (fun r h c => ⟨(h c).1.trans (Cert.Tern.KFold.t1 m ρ c), (h c).2.1.trans (Cert.Tern.KFold.t2 m ρ c), (h c).2.2⟩)
    (Cert.Tern.KRun.run (F := Ideal) m ρ), ?_⟩
  refine (θ_run Cert.ReferenceIdeal.defs _ _).mono (fun r h c => ?_) (Cert.ReferenceIdeal.Value.run (F := Ideal) m' ρ')
  obtain ⟨h67, h89, hrest⟩ := h c
  obtain ⟨f1, f3, f5, f7⟩ := Cert.Tern.Fin.finite_weights m hpre c
  obtain ⟨a0, a1, a2, a3, a4, a5, a6, a7, a8⟩ := hagree c
  refine ⟨?_, ?_, hrest⟩
  · rw [h67, Cert.ReferenceIdeal.Read.val_main_v67_eq, a0, a1, a2, a3, a4, a5, a6]
    exact Cert.Tern.Ref.ref_tier1 _ _ _ _ _ _ _ f1 f3 f5
  · rw [h89, Cert.ReferenceIdeal.Read.val_main_v89_eq, a0, a1, a2, a3, a4, a7, a8]
    exact Cert.Tern.Ref.ref_tier2 _ _ _ _ _ _ _ f1 f3 f7

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
